-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v127)) (v2 : (c : Dev Cert.KernelIdeal.nD) → Buf (Elt Ideal) ((c.tc : Thread Cert.KernelIdeal.nD Cert.KernelIdeal.τ).loc Cert.KernelIdeal.main_v56)) (v3 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_v113) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S15000 : Shape := ⟨1, ![15000]⟩
abbrev S2x1600000 : Shape := ⟨2, ![2, 1600000]⟩
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : IVec S15000 32) (main_arg1 : IVec S15000 32) (main_arg2 : IVec S2x1600000 32) (main_arg3 : IVec S2x1600000 32) (main_arg4 : FVec F S100000x128 .f32) (main_arg5 : FVec F S100000x128 .f32) (main_arg6 : FVec F S128x128 .f32) (main_arg7 : FVec F S128x128 .f32) : IVec S_ 1 :=
  let main_v0 : FVec F S100000x128 .f32 := Host.absf main_arg4
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg5
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S15000 : Shape := ⟨1, ![15000]⟩
abbrev S2x1600000 : Shape := ⟨2, ![2, 1600000]⟩
abbrev S100000x128 : Shape := ⟨2, ![100000, 128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S15000x1 : Shape := ⟨2, ![15000, 1]⟩
abbrev S15000x128 : Shape := ⟨2, ![15000, 128]⟩

abbrev nBuf : Space → Nat
  | .hbm => 164
  | .vmem => 44
  | .smem => 0
  | _ => 0

abbrev hbmTy0_0 (i : Nat) : BufTy := match i % 128 with
  | 0 => ⟨S15000, .i32⟩
  | 1 => ⟨S15000, .i32⟩
  | 2 => ⟨S2x1600000, .i32⟩
  | 3 => ⟨S2x1600000, .i32⟩
  | 4 => ⟨S100000x128, .f32⟩
  | 5 => ⟨S100000x128, .f32⟩
  | 6 => ⟨S128x128, .f32⟩
  | 7 => ⟨S128x128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S100000x128, .f32⟩
  | 42 => ⟨S1700000x1, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x128, .f32⟩
  | 52 => ⟨S1700000x128, .f32⟩
  | 53 => ⟨S1700000x128, .f32⟩
  | 54 => ⟨S_, .f32⟩
  | 55 => ⟨S100000x128, .f32⟩
  | 56 => ⟨S1700000x1, .i32⟩
  | 57 => ⟨S100000x128, .f32⟩
  | 58 => ⟨S100000x128, .f32⟩
  | 59 => ⟨S100000x128, .f32⟩
  | 60 => ⟨S1700000x1, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S100000x128, .f32⟩
  | 77 => ⟨S100000, .i32⟩
  | 78 => ⟨S1x1600000, .i32⟩
  | 79 => ⟨S1600000, .i32⟩
  | 80 => ⟨S1700000, .i32⟩
  | 81 => ⟨S1x1600000, .i32⟩
  | 82 => ⟨S1600000, .i32⟩
  | 83 => ⟨S1700000, .i32⟩
  | 84 => ⟨S_, .f32⟩
  | 85 => ⟨S1700000, .f32⟩
  | 86 => ⟨S_, .f32⟩
  | 87 => ⟨S100000, .f32⟩
  | 88 => ⟨S1700000x1, .i32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S100000x128, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x128, .f32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S100000x128, .f32⟩
  | _ => ⟨S15000, .i32⟩

abbrev hbmTy0_1 (i : Nat) : BufTy := match i % 128 with
  | 0 => ⟨S100000x128, .f32⟩
  | 1 => ⟨S1700000x1, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x128, .f32⟩
  | 11 => ⟨S1700000x128, .f32⟩
  | 12 => ⟨S1700000x128, .f32⟩
  | 13 => ⟨S_, .f32⟩
  | 14 => ⟨S100000x128, .f32⟩
  | 15 => ⟨S1700000x1, .i32⟩
  | 16 => ⟨S100000x128, .f32⟩
  | 17 => ⟨S100000x128, .f32⟩
  | 18 => ⟨S_, .i32⟩
  | 19 => ⟨S15000, .i32⟩
  | 20 => ⟨S15000, .i1⟩
  | 21 => ⟨S_, .i32⟩
  | 22 => ⟨S15000, .i32⟩
  | 23 => ⟨S15000, .i32⟩
  | 24 => ⟨S15000, .i32⟩
  | 25 => ⟨S15000x1, .i32⟩
  | 26 => ⟨S15000x128, .f32⟩
  | 27 => ⟨S_, .i32⟩
  | 28 => ⟨S15000, .i32⟩
  | 29 => ⟨S15000, .i1⟩
  | 30 => ⟨S_, .i32⟩
  | 31 => ⟨S15000, .i32⟩
  | 32 => ⟨S15000, .i32⟩
  | 33 => ⟨S15000, .i32⟩
  | 34 => ⟨S15000x1, .i32⟩
  | 35 => ⟨S15000x128, .f32⟩
  | _ => ⟨S15000, .i32⟩

abbrev hbmTy (i : Nat) : BufTy := match i / 128 with
  | 0 => hbmTy0_0 i
  | 1 => hbmTy0_1 i
  | _ => ⟨S15000, .i32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S128x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | _, _ => ⟨S15000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_12 : Ref sig .tc := ⟨.hbm, 91, rfl⟩
abbrev main_v69 : Ref sig .tc := ⟨.hbm, 92, rfl⟩
abbrev main_v70 : Ref sig .tc := ⟨.hbm, 93, rfl⟩
abbrev main_c_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_14 : Ref sig .tc := ⟨.hbm, 100, rfl⟩
abbrev main_v76 : Ref sig .tc := ⟨.hbm, 101, rfl⟩
abbrev main_v77 : Ref sig .tc := ⟨.hbm, 102, rfl⟩
abbrev main_c_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_16 : Ref sig .tc := ⟨.hbm, 112, rfl⟩
abbrev main_v86 : Ref sig .tc := ⟨.hbm, 113, rfl⟩
abbrev main_v87 : Ref sig .tc := ⟨.hbm, 114, rfl⟩
abbrev main_c_17 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_18 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_c_19 : Ref sig .tc := ⟨.hbm, 130, rfl⟩
abbrev main_v101 : Ref sig .tc := ⟨.hbm, 131, rfl⟩
abbrev main_v102 : Ref sig .tc := ⟨.hbm, 132, rfl⟩
abbrev main_c_20 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_21 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_c_22 : Ref sig .tc := ⟨.hbm, 146, rfl⟩
abbrev main_v114 : Ref sig .tc := ⟨.hbm, 147, rfl⟩
abbrev main_v115 : Ref sig .tc := ⟨.hbm, 148, rfl⟩
abbrev main_c_23 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_c_24 : Ref sig .tc := ⟨.hbm, 155, rfl⟩
abbrev main_v121 : Ref sig .tc := ⟨.hbm, 156, rfl⟩
abbrev main_v122 : Ref sig .tc := ⟨.hbm, 157, rfl⟩
abbrev main_c_25 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg1_1 : Ref sig .tc := ⟨.vmem, 41, rfl⟩
abbrev cc7_stg2_0 : Ref sig .tc := ⟨.vmem, 42, rfl⟩
abbrev cc7_stg2_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem1_1 : DmaSem sig := 41
abbrev cc7_sem2_0 : DmaSem sig := 42
abbrev cc7_sem2_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S4000x128_S4000x128 : S4000x128.ShapeCasts S4000x128
  bcast_S_S15000 : S_.BroadcastsInDim S15000 (![] : Fin 0 → Fin S15000.rank)
  bcast_S15000_S15000x1_0 : S15000.BroadcastsInDim S15000x1 (![0] : Fin 1 → Fin S15000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S15000x1_S15000x128_1_0_n_n_0_1_1128_wf : GatherDims.WF S100000x128 S15000x1 S15000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .f32 = 32 ∨ (Rect.block (s := S100000x128) S4000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S100000x128.size a
  hwx6_2 : ∀ i : grid6.Coords, EltTy.bits .f32 = 32 ∨ (Rect.block (s := S100000x128) S4000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .f32 = 32 ∨ (Rect.block (s := S100000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x128.size a ≤ S100000x128.size a
  hwx7_1 : ∀ i : grid7.Coords, EltTy.bits .f32 = 32 ∨ (Rect.block (s := S100000x128) S4000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S100000x128.size a
  hwx7_2 : ∀ i : grid7.Coords, EltTy.bits .f32 = 32 ∨ (Rect.block (s := S100000x128) S4000x128.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S15000x1_S15000x128_1_0_n_n_0_1_1128 : GatherDims S100000x128 S15000x1 S15000x128 where
  offsetDims := [1]
  collapsedSliceDims := [0]
  operandBatchingDims := []
  startIndicesBatchingDims := []
  startIndexMap := [0]
  indexVectorDim := 1
  sliceSizes := ![1, 128]
  wf := gather_S100000x128_S15000x1_S15000x128_1_0_n_n_0_1_1128_wf

abbrev win0_0 : Pipeline.Window sig grid0 :=
  Pipeline.Window.ofSpec (Memref.whole main_arg4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg5) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v97) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v98) S4000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v98) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S4000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v112) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v99) S4000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v113) S4000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S15000 : Shape := ⟨1, ![15000]⟩
abbrev S2x1600000 : Shape := ⟨2, ![2, 1600000]⟩
abbrev S100000x128 : Shape := ⟨2, ![100000, 128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S15000x1 : Shape := ⟨2, ![15000, 1]⟩
abbrev S15000x128 : Shape := ⟨2, ![15000, 128]⟩

abbrev nBuf : Space → Nat
  | .hbm => 176
  | .vmem => 0
  | .smem => 0
  | _ => 0

abbrev hbmTy0_0 (i : Nat) : BufTy := match i % 128 with
  | 0 => ⟨S15000, .i32⟩
  | 1 => ⟨S15000, .i32⟩
  | 2 => ⟨S2x1600000, .i32⟩
  | 3 => ⟨S2x1600000, .i32⟩
  | 4 => ⟨S100000x128, .f32⟩
  | 5 => ⟨S100000x128, .f32⟩
  | 6 => ⟨S128x128, .f32⟩
  | 7 => ⟨S128x128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S100000x128, .f32⟩
  | 42 => ⟨S1700000x1, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x128, .f32⟩
  | 52 => ⟨S1700000x128, .f32⟩
  | 53 => ⟨S1700000x128, .f32⟩
  | 54 => ⟨S_, .f32⟩
  | 55 => ⟨S100000x128, .f32⟩
  | 56 => ⟨S1700000x1, .i32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x128, .f32⟩
  | 63 => ⟨S1700000x1, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x128, .f32⟩
  | 73 => ⟨S1700000x128, .f32⟩
  | 74 => ⟨S1700000x128, .f32⟩
  | 75 => ⟨S_, .f32⟩
  | 76 => ⟨S100000x128, .f32⟩
  | 77 => ⟨S1700000x1, .i32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000, .i32⟩
  | 84 => ⟨S1x1600000, .i32⟩
  | 85 => ⟨S1600000, .i32⟩
  | 86 => ⟨S1700000, .i32⟩
  | 87 => ⟨S1x1600000, .i32⟩
  | 88 => ⟨S1600000, .i32⟩
  | 89 => ⟨S1700000, .i32⟩
  | 90 => ⟨S_, .f32⟩
  | 91 => ⟨S1700000, .f32⟩
  | 92 => ⟨S_, .f32⟩
  | 93 => ⟨S100000, .f32⟩
  | 94 => ⟨S1700000x1, .i32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S100000x128, .f32⟩
  | 117 => ⟨S1700000x1, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x128, .f32⟩
  | 127 => ⟨S1700000x128, .f32⟩
  | _ => ⟨S15000, .i32⟩

abbrev hbmTy0_1 (i : Nat) : BufTy := match i % 128 with
  | 0 => ⟨S1700000x128, .f32⟩
  | 1 => ⟨S_, .f32⟩
  | 2 => ⟨S100000x128, .f32⟩
  | 3 => ⟨S1700000x1, .i32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x128, .f32⟩
  | 10 => ⟨S1700000x1, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000x128, .f32⟩
  | 20 => ⟨S1700000x128, .f32⟩
  | 21 => ⟨S1700000x128, .f32⟩
  | 22 => ⟨S_, .f32⟩
  | 23 => ⟨S100000x128, .f32⟩
  | 24 => ⟨S1700000x1, .i32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S_, .i32⟩
  | 31 => ⟨S15000, .i32⟩
  | 32 => ⟨S15000, .i1⟩
  | 33 => ⟨S_, .i32⟩
  | 34 => ⟨S15000, .i32⟩
  | 35 => ⟨S15000, .i32⟩
  | 36 => ⟨S15000, .i32⟩
  | 37 => ⟨S15000x1, .i32⟩
  | 38 => ⟨S15000x128, .f32⟩
  | 39 => ⟨S_, .i32⟩
  | 40 => ⟨S15000, .i32⟩
  | 41 => ⟨S15000, .i1⟩
  | 42 => ⟨S_, .i32⟩
  | 43 => ⟨S15000, .i32⟩
  | 44 => ⟨S15000, .i32⟩
  | 45 => ⟨S15000, .i32⟩
  | 46 => ⟨S15000x1, .i32⟩
  | 47 => ⟨S15000x128, .f32⟩
  | _ => ⟨S15000, .i32⟩

abbrev hbmTy (i : Nat) : BufTy := match i / 128 with
  | 0 => hbmTy0_0 i
  | 1 => hbmTy0_1 i
  | _ => ⟨S15000, .i32⟩

abbrev bufTy : (tb : Table) → Fin (tcTables nBuf tb) → BufTy
  | .hbm, ⟨i, _⟩ => hbmTy i
  | _, _ => ⟨S15000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call0_cst : Ref sig .tc := ⟨.hbm, 59, rfl⟩
abbrev main_call0_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_7 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call1_cst : Ref sig .tc := ⟨.hbm, 80, rfl⟩
abbrev main_call1_v0 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_12 : Ref sig .tc := ⟨.hbm, 97, rfl⟩
abbrev main_v71 : Ref sig .tc := ⟨.hbm, 98, rfl⟩
abbrev main_v72 : Ref sig .tc := ⟨.hbm, 99, rfl⟩
abbrev main_c_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_14 : Ref sig .tc := ⟨.hbm, 106, rfl⟩
abbrev main_v78 : Ref sig .tc := ⟨.hbm, 107, rfl⟩
abbrev main_v79 : Ref sig .tc := ⟨.hbm, 108, rfl⟩
abbrev main_c_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_16 : Ref sig .tc := ⟨.hbm, 118, rfl⟩
abbrev main_v88 : Ref sig .tc := ⟨.hbm, 119, rfl⟩
abbrev main_v89 : Ref sig .tc := ⟨.hbm, 120, rfl⟩
abbrev main_c_17 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_call2_cst : Ref sig .tc := ⟨.hbm, 134, rfl⟩
abbrev main_call2_v0 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_19 : Ref sig .tc := ⟨.hbm, 139, rfl⟩
abbrev main_v104 : Ref sig .tc := ⟨.hbm, 140, rfl⟩
abbrev main_v105 : Ref sig .tc := ⟨.hbm, 141, rfl⟩
abbrev main_c_20 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_21 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_call3_cst : Ref sig .tc := ⟨.hbm, 155, rfl⟩
abbrev main_call3_v0 : Ref sig .tc := ⟨.hbm, 156, rfl⟩
abbrev main_v117 : Ref sig .tc := ⟨.hbm, 157, rfl⟩
abbrev main_c_22 : Ref sig .tc := ⟨.hbm, 158, rfl⟩
abbrev main_v118 : Ref sig .tc := ⟨.hbm, 159, rfl⟩
abbrev main_v119 : Ref sig .tc := ⟨.hbm, 160, rfl⟩
abbrev main_c_23 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_24 : Ref sig .tc := ⟨.hbm, 167, rfl⟩
abbrev main_v125 : Ref sig .tc := ⟨.hbm, 168, rfl⟩
abbrev main_v126 : Ref sig .tc := ⟨.hbm, 169, rfl⟩
abbrev main_c_25 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S_S15000 : S_.BroadcastsInDim S15000 (![] : Fin 0 → Fin S15000.rank)
  bcast_S15000_S15000x1_0 : S15000.BroadcastsInDim S15000x1 (![0] : Fin 1 → Fin S15000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S15000x1_S15000x128_1_0_n_n_0_1_1128_wf : GatherDims.WF S100000x128 S15000x1 S15000x128 [1] [0] [] [0] [] 1 ![1, 128]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S15000x1_S15000x128_1_0_n_n_0_1_1128 : GatherDims S100000x128 S15000x1 S15000x128 where
  offsetDims := [1]
  collapsedSliceDims := [0]
  operandBatchingDims := []
  startIndicesBatchingDims := []
  startIndexMap := [0]
  indexVectorDim := 1
  sliceSizes := ![1, 128]
  wf := gather_S100000x128_S15000x1_S15000x128_1_0_n_n_0_1_1128_wf

class Facts : Prop extends Facts₀ where

variable [Facts]
-- ==== Proof.Values.lean ====
/- The values the two programs compute, named once. Both programs run the same graph computation on two graphs: append
  the self-loops to the edge list, count the degrees by a scatter-add of ones, weight each edge by the product of the
  inverse square roots of its endpoints' degrees, and then twice: transform the features by a weight, gather the
  transformed rows at the sources, scale by the edge weights, scatter-add at the destinations, add the transform back
  and rectify. Each named value below is the reference's own stage function at the KERNEL program's launch contents
  of the arguments, so the kernel's buffers are compared with exactly what the reference computes.
-/
import proofs.«124893_j10479720202575_1_alg».proof.Proof.Gen.KernelIdeal
import proofs.«124893_j10479720202575_1_alg».proof.Proof.Gen.ReferenceIdeal.Read

noncomputable section

namespace Cert.Bridge.Values

open Idealize.ShloMosaic Idealize.ShloMosaic.TcCoe Idealize.SL.Sem
open Cert.KernelIdeal

variable (m : (ℓ : Loc nD τ sig) → Buf (Elt Ideal) ℓ) (c : Dev nD)

/-- Argument 0 as launched on core c. -/
abbrev arg0 : Buf (Elt Ideal) ((c : Thread nD τ).loc main_arg0) := m ((c : Thread nD τ).loc main_arg0)
/-- Argument 1 as launched on core c. -/
abbrev arg1 : Buf (Elt Ideal) ((c : Thread nD τ).loc main_arg1) := m ((c : Thread nD τ).loc main_arg1)
/-- Argument 2 as launched on core c. -/
abbrev arg2 : Buf (Elt Ideal) ((c : Thread nD τ).loc main_arg2) := m ((c : Thread nD τ).loc main_arg2)
/-- Argument 3 as launched on core c. -/
abbrev arg3 : Buf (Elt Ideal) ((c : Thread nD τ).loc main_arg3) := m ((c : Thread nD τ).loc main_arg3)
/-- Argument 4 as launched on core c. -/
abbrev arg4 : Buf (Elt Ideal) ((c : Thread nD τ).loc main_arg4) := m ((c : Thread nD τ).loc main_arg4)
/-- Argument 5 as launched on core c. -/
abbrev arg5 : Buf (Elt Ideal) ((c : Thread nD τ).loc main_arg5) := m ((c : Thread nD τ).loc main_arg5)
/-- Argument 6 as launched on core c. -/
abbrev arg6 : Buf (Elt Ideal) ((c : Thread nD τ).loc main_arg6) := m ((c : Thread nD τ).loc main_arg6)
/-- Argument 7 as launched on core c. -/
abbrev arg7 : Buf (Elt Ideal) ((c : Thread nD τ).loc main_arg7) := m ((c : Thread nD τ).loc main_arg7)

/-- Graph one's source indices with the self-loops appended. -/
abbrev src1 := Cert.ReferenceIdeal.Read.val_main_v3 (F := Ideal) (arg2 m c)
/-- Graph one's destination indices with the self-loops appended. -/
abbrev dst1 := Cert.ReferenceIdeal.Read.val_main_v6 (F := Ideal) (arg2 m c)
/-- Graph one's edge weights: the inverse square roots of the two endpoint degrees multiplied. -/
abbrev nrm1 := Cert.ReferenceIdeal.Read.val_main_v26 (F := Ideal) (arg2 m c)
/-- Graph one, layer one: the dense transform of the embeddings. -/
abbrev h1a := Cert.ReferenceIdeal.Read.val_main_v27 (F := Ideal) (arg4 m c) (arg6 m c)
/-- Graph one, layer one: the weighted messages summed at their destinations. -/
abbrev agg1a := Cert.ReferenceIdeal.Read.val_main_v40 (F := Ideal) (arg2 m c) (arg4 m c) (arg6 m c)
/-- Graph one after layer one: the residual, rectified. -/
abbrev x1a := Cert.ReferenceIdeal.Read.val_main_v42 (F := Ideal) (arg2 m c) (arg4 m c) (arg6 m c)
/-- Graph one, layer two: the dense transform. -/
abbrev h1b := Cert.ReferenceIdeal.Read.val_main_v43 (F := Ideal) (arg2 m c) (arg4 m c) (arg6 m c) (arg7 m c)
/-- Graph one, layer two: the aggregate. -/
abbrev agg1b := Cert.ReferenceIdeal.Read.val_main_v56 (F := Ideal) (arg2 m c) (arg4 m c) (arg6 m c) (arg7 m c)
/-- Graph one after layer two (the third result). -/
abbrev x1b := Cert.ReferenceIdeal.Read.val_main_v58 (F := Ideal) (arg2 m c) (arg4 m c) (arg6 m c) (arg7 m c)
/-- Graph two's source indices with the self-loops appended. -/
abbrev src2 := Cert.ReferenceIdeal.Read.val_main_v62 (F := Ideal) (arg3 m c)
/-- Graph two's destination indices with the self-loops appended. -/
abbrev dst2 := Cert.ReferenceIdeal.Read.val_main_v65 (F := Ideal) (arg3 m c)
/-- Graph two's edge weights. -/
abbrev nrm2 := Cert.ReferenceIdeal.Read.val_main_v85 (F := Ideal) (arg3 m c)
/-- Graph two, layer one: the dense transform. -/
abbrev h2a := Cert.ReferenceIdeal.Read.val_main_v86 (F := Ideal) (arg5 m c) (arg6 m c)
/-- Graph two, layer one: the aggregate. -/
abbrev agg2a := Cert.ReferenceIdeal.Read.val_main_v99 (F := Ideal) (arg3 m c) (arg5 m c) (arg6 m c)
/-- Graph two after layer one. -/
abbrev x2a := Cert.ReferenceIdeal.Read.val_main_v101 (F := Ideal) (arg3 m c) (arg5 m c) (arg6 m c)
/-- Graph two, layer two: the dense transform. -/
abbrev h2b := Cert.ReferenceIdeal.Read.val_main_v102 (F := Ideal) (arg3 m c) (arg5 m c) (arg6 m c) (arg7 m c)
/-- Graph two, layer two: the aggregate. -/
abbrev agg2b := Cert.ReferenceIdeal.Read.val_main_v115 (F := Ideal) (arg3 m c) (arg5 m c) (arg6 m c) (arg7 m c)
/-- Graph two after layer two (the fourth result). -/
abbrev x2b := Cert.ReferenceIdeal.Read.val_main_v117 (F := Ideal) (arg3 m c) (arg5 m c) (arg6 m c) (arg7 m c)
/-- The first result: graph one's final features gathered at the first seed list. -/
abbrev out0 := Cert.ReferenceIdeal.Read.val_main_v124 (F := Ideal) (arg0 m c) (arg2 m c) (arg4 m c) (arg6 m c) (arg7 m c)
/-- The second result: graph two's final features gathered at the second seed list. -/
abbrev out1 := Cert.ReferenceIdeal.Read.val_main_v131 (F := Ideal) (arg1 m c) (arg3 m c) (arg5 m c) (arg6 m c) (arg7 m c)

end Cert.Bridge.Values

end
-- ==== Proof.Keep.lean ====
/- Which buffers each stretch of host operations of the idealized kernel program writes, and that every other buffer
  passes through the stretch unchanged: a stretch is a line of operations, each writing exactly its result buffer,
  so a buffer that is no operation's result holds after the line what it held before.
-/
import proofs.«124893_j10479720202575_1_alg».proof.Proof.Gen.KernelIdeal.Launch
import Idealize.ShloMosaic.Lib.StableHlo.Run

set_option maxRecDepth 16384

noncomputable section

namespace Cert.Bridge.Keep

open Idealize.ShloMosaic Idealize.ShloMosaic.TcCoe Idealize.SL.Sem
open Cert.KernelIdeal Cert.KernelIdeal.Gen

variable {F : FTy → Type} [FloatOps F]

/-- The result buffers of the operations of stretch 0, in program order. -/
def writes0 : List (Ref sig .tc) :=
  [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]

/-- Each operation of stretch 0 writes only its own result buffer, which is in the list. -/
theorem writes0_sub : (hostOps0 : List (HloOp τ sig (Elt F))).Forall fun op =>
    op.writes ⊆ (writes0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals
    refine Finset.singleton_subset_iff.mpr (List.mem_toFinset.mpr (List.mem_map_of_mem ?_))
    decide

/-- A buffer that is no result of stretch 0 passes through it. -/
theorem keep0 (V : Valuation τ sig (Elt F)) (r : Ref sig .tc) (hr : r ∉ writes0) :
    StableHlo.after (hostOps0 : List (HloOp τ sig (Elt F))) V (Proc.devRef .tc r) = V (Proc.devRef .tc r) :=
  StableHlo.after_of_writes_sub hostOps0 V writes0_sub hr

/-- The result buffers of the operations of stretch 1, in program order. -/
def writes1 : List (Ref sig .tc) :=
  [main_v28, main_c_4, main_v29, main_v30, main_c_5, main_v31, main_v32, main_v33, main_v34, main_v35, main_v36, main_v37, main_cst_6, main_v38, main_v39, main_v40]

/-- Each operation of stretch 1 writes only its own result buffer, which is in the list. -/
theorem writes1_sub : (hostOps1 : List (HloOp τ sig (Elt F))).Forall fun op =>
    op.writes ⊆ (writes1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals
    refine Finset.singleton_subset_iff.mpr (List.mem_toFinset.mpr (List.mem_map_of_mem ?_))
    decide

/-- A buffer that is no result of stretch 1 passes through it. -/
theorem keep1 (V : Valuation τ sig (Elt F)) (r : Ref sig .tc) (hr : r ∉ writes1) :
    StableHlo.after (hostOps1 : List (HloOp τ sig (Elt F))) V (Proc.devRef .tc r) = V (Proc.devRef .tc r) :=
  StableHlo.after_of_writes_sub hostOps1 V writes1_sub hr

/-- The result buffers of the operations of stretch 3, in program order. -/
def writes3 : List (Ref sig .tc) :=
  [main_v43, main_c_7, main_v44, main_v45, main_c_8, main_v46, main_v47, main_v48, main_v49, main_v50, main_v51, main_v52, main_cst_9, main_v53, main_v54, main_v55]

/-- Each operation of stretch 3 writes only its own result buffer, which is in the list. -/
theorem writes3_sub : (hostOps3 : List (HloOp τ sig (Elt F))).Forall fun op =>
    op.writes ⊆ (writes3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals
    refine Finset.singleton_subset_iff.mpr (List.mem_toFinset.mpr (List.mem_map_of_mem ?_))
    decide

/-- A buffer that is no result of stretch 3 passes through it. -/
theorem keep3 (V : Valuation τ sig (Elt F)) (r : Ref sig .tc) (hr : r ∉ writes3) :
    StableHlo.after (hostOps3 : List (HloOp τ sig (Elt F))) V (Proc.devRef .tc r) = V (Proc.devRef .tc r) :=
  StableHlo.after_of_writes_sub hostOps3 V writes3_sub hr

/-- The result buffers of the operations of stretch 4, in program order. -/
def writes4 : List (Ref sig .tc) :=
  [main_v57, main_v58, main_v59, main_v60, main_v61, main_v62, main_v63, main_cst_10, main_v64, main_cst_11, main_v65, main_v66, main_v67, main_v68, main_c_12, main_v69, main_v70, main_c_13, main_v71, main_v72, main_v73, main_v74, main_v75, main_c_14, main_v76, main_v77, main_c_15, main_v78, main_v79, main_v80, main_v81, main_v82, main_v83]

/-- Each operation of stretch 4 writes only its own result buffer, which is in the list. -/
theorem writes4_sub : (hostOps4 : List (HloOp τ sig (Elt F))).Forall fun op =>
    op.writes ⊆ (writes4.map (Proc.devRef (τ := τ) .tc)).toFinset := by
  simp only [hostOps4, List.Forall, StableHlo.nullary_writes, StableHlo.unary_writes, StableHlo.binary_writes,
    StableHlo.ternary_writes, StableHlo.reshape_writes]
  repeat' apply And.intro
  all_goals
    refine Finset.singleton_subset_iff.mpr (List.mem_toFinset.mpr (List.mem_map_of_mem ?_))
    decide

/-- A buffer that is no result of stretch 4 passes through it. -/
theorem keep4 (V : Valuation τ sig (Elt F)) (r : Ref sig .tc) (hr : r ∉ writes4) :
    StableHlo.after (hostOps4 : List (HloOp τ sig (Elt F))) V (Proc.devRef .tc r) = V (Proc.devRef .tc r) :=
  StableHlo.after_of_writes_sub hostOps4 V writes4_sub hr

/-- The result buffers of the operations of stretch 5, in program order. -/
def writes5 : List (Ref sig .tc) :=
  [main_v85, main_c_16, main_v86, main_v87, main_c_17, main_v88, main_v89, main_v90, main_v91, main_v92, main_v93, main_v94, main_cst_18, main_v95, main_v96, main_v97]

/-- Each operation of stretch 5 writes only its own result buffer, which is in the list. -/
theorem writes5_sub : (hostOps5 : List (HloOp τ sig (Elt F))).Forall fun op =>
    op.writes ⊆ (writes5.map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals
    refine Finset.singleton_subset_iff.mpr (List.mem_toFinset.mpr (List.mem_map_of_mem ?_))
    decide

/-- A buffer that is no result of stretch 5 passes through it. -/
theorem keep5 (V : Valuation τ sig (Elt F)) (r : Ref sig .tc) (hr : r ∉ writes5) :
    StableHlo.after (hostOps5 : List (HloOp τ sig (Elt F))) V (Proc.devRef .tc r) = V (Proc.devRef .tc r) :=
  StableHlo.after_of_writes_sub hostOps5 V writes5_sub hr

/-- The result buffers of the operations of stretch 7, in program order. -/
def writes7 : List (Ref sig .tc) :=
  [main_v100, main_c_19, main_v101, main_v102, main_c_20, main_v103, main_v104, main_v105, main_v106, main_v107, main_v108, main_v109, main_cst_21, main_v110, main_v111, main_v112]

/-- Each operation of stretch 7 writes only its own result buffer, which is in the list. -/
theorem writes7_sub : (hostOps7 : List (HloOp τ sig (Elt F))).Forall fun op =>
    op.writes ⊆ (writes7.map (Proc.devRef (τ := τ) .tc)).toFinset := by
  simp only [hostOps7, List.Forall, StableHlo.nullary_writes, StableHlo.unary_writes, StableHlo.binary_writes,
    StableHlo.ternary_writes, StableHlo.reshape_writes]
  repeat' apply And.intro
  all_goals
    refine Finset.singleton_subset_iff.mpr (List.mem_toFinset.mpr (List.mem_map_of_mem ?_))
    decide

/-- A buffer that is no result of stretch 7 passes through it. -/
theorem keep7 (V : Valuation τ sig (Elt F)) (r : Ref sig .tc) (hr : r ∉ writes7) :
    StableHlo.after (hostOps7 : List (HloOp τ sig (Elt F))) V (Proc.devRef .tc r) = V (Proc.devRef .tc r) :=
  StableHlo.after_of_writes_sub hostOps7 V writes7_sub hr

/-- The result buffers of the operations of stretch 8, in program order. -/
def writes8 : List (Ref sig .tc) :=
  [main_c_22, main_v114, main_v115, main_c_23, main_v116, main_v117, main_v118, main_v119, main_v120, main_c_24, main_v121, main_v122, main_c_25, main_v123, main_v124, main_v125, main_v126, main_v127]

/-- Each operation of stretch 8 writes only its own result buffer, which is in the list. -/
theorem writes8_sub : (hostOps8 : List (HloOp τ sig (Elt F))).Forall fun op =>
    op.writes ⊆ (writes8.map (Proc.devRef (τ := τ) .tc)).toFinset := by
  simp only [hostOps8, List.Forall, StableHlo.nullary_writes, StableHlo.unary_writes, StableHlo.binary_writes,
    StableHlo.ternary_writes, StableHlo.reshape_writes]
  repeat' apply And.intro
  all_goals
    refine Finset.singleton_subset_iff.mpr (List.mem_toFinset.mpr (List.mem_map_of_mem ?_))
    decide

/-- A buffer that is no result of stretch 8 passes through it. -/
theorem keep8 (V : Valuation τ sig (Elt F)) (r : Ref sig .tc) (hr : r ∉ writes8) :
    StableHlo.after (hostOps8 : List (HloOp τ sig (Elt F))) V (Proc.devRef .tc r) = V (Proc.devRef .tc r) :=
  StableHlo.after_of_writes_sub hostOps8 V writes8_sub hr

end Cert.Bridge.Keep

end
-- ==== Proof.ChainArgs.lean ====
/- The arguments pass through the idealized kernel program unchanged: no host operation and no kernel region writes an
  argument's buffer, so at every boundary between segments up to the last one that reads it, the buffer holds the
  launch contents. W0 … W15 are the buffer contents at the boundaries (W0 the launch memory).
-/
import proofs.«124893_j10479720202575_1_alg».proof.Proof.Gen.KernelIdeal.Frame
import proofs.«124893_j10479720202575_1_alg».proof.Proof.Keep
import proofs.«124893_j10479720202575_1_alg».proof.Proof.Values

set_option maxRecDepth 16384

noncomputable section

namespace Cert.Bridge.Chain

open Idealize.ShloMosaic Idealize.ShloMosaic.TcCoe Idealize.SL.Sem Idealize.ShloMosaic.StableHlo
open Cert.KernelIdeal Cert.KernelIdeal.Gen Cert.Bridge.Keep Cert.Bridge.Values

variable (m : (ℓ : Loc nD τ sig) → Buf (Elt Ideal) ℓ) (ρ : Dev nD → PrngReg) (c : Dev nD)

/-! ## Argument 0, up to boundary 14 -/

theorem w1_a0 : W1 m ρ c (Proc.devRef .tc main_arg0) = arg0 m c :=
  (keep0 (W0 m ρ c) main_arg0 (by decide)).trans rfl
theorem w2_a0 : W2 m ρ c (Proc.devRef .tc main_arg0) = arg0 m c :=
  (W2_of_ne m ρ c main_arg0 (by decide)).trans (w1_a0 m ρ c)
theorem w3_a0 : W3 m ρ c (Proc.devRef .tc main_arg0) = arg0 m c :=
  (keep1 (W2 m ρ c) main_arg0 (by decide)).trans (w2_a0 m ρ c)
theorem w4_a0 : W4 m ρ c (Proc.devRef .tc main_arg0) = arg0 m c :=
  (W4_of_ne m ρ c main_arg0 (by decide)).trans (w3_a0 m ρ c)
theorem w5_a0 : W5 m ρ c (Proc.devRef .tc main_arg0) = arg0 m c :=
  (W5_of_ne m ρ c main_arg0 (by decide)).trans (w4_a0 m ρ c)
theorem w6_a0 : W6 m ρ c (Proc.devRef .tc main_arg0) = arg0 m c :=
  (keep3 (W5 m ρ c) main_arg0 (by decide)).trans (w5_a0 m ρ c)
theorem w7_a0 : W7 m ρ c (Proc.devRef .tc main_arg0) = arg0 m c :=
  (W7_of_ne m ρ c main_arg0 (by decide)).trans (w6_a0 m ρ c)
theorem w8_a0 : W8 m ρ c (Proc.devRef .tc main_arg0) = arg0 m c :=
  (keep4 (W7 m ρ c) main_arg0 (by decide)).trans (w7_a0 m ρ c)
theorem w9_a0 : W9 m ρ c (Proc.devRef .tc main_arg0) = arg0 m c :=
  (W9_of_ne m ρ c main_arg0 (by decide)).trans (w8_a0 m ρ c)
theorem w10_a0 : W10 m ρ c (Proc.devRef .tc main_arg0) = arg0 m c :=
  (keep5 (W9 m ρ c) main_arg0 (by decide)).trans (w9_a0 m ρ c)
theorem w11_a0 : W11 m ρ c (Proc.devRef .tc main_arg0) = arg0 m c :=
  (W11_of_ne m ρ c main_arg0 (by decide)).trans (w10_a0 m ρ c)
theorem w12_a0 : W12 m ρ c (Proc.devRef .tc main_arg0) = arg0 m c :=
  (W12_of_ne m ρ c main_arg0 (by decide)).trans (w11_a0 m ρ c)
theorem w13_a0 : W13 m ρ c (Proc.devRef .tc main_arg0) = arg0 m c :=
  (keep7 (W12 m ρ c) main_arg0 (by decide)).trans (w12_a0 m ρ c)
theorem w14_a0 : W14 m ρ c (Proc.devRef .tc main_arg0) = arg0 m c :=
  (W14_of_ne m ρ c main_arg0 (by decide)).trans (w13_a0 m ρ c)

/-! ## Argument 1, up to boundary 14 -/

theorem w1_a1 : W1 m ρ c (Proc.devRef .tc main_arg1) = arg1 m c :=
  (keep0 (W0 m ρ c) main_arg1 (by decide)).trans rfl
theorem w2_a1 : W2 m ρ c (Proc.devRef .tc main_arg1) = arg1 m c :=
  (W2_of_ne m ρ c main_arg1 (by decide)).trans (w1_a1 m ρ c)
theorem w3_a1 : W3 m ρ c (Proc.devRef .tc main_arg1) = arg1 m c :=
  (keep1 (W2 m ρ c) main_arg1 (by decide)).trans (w2_a1 m ρ c)
theorem w4_a1 : W4 m ρ c (Proc.devRef .tc main_arg1) = arg1 m c :=
  (W4_of_ne m ρ c main_arg1 (by decide)).trans (w3_a1 m ρ c)
theorem w5_a1 : W5 m ρ c (Proc.devRef .tc main_arg1) = arg1 m c :=
  (W5_of_ne m ρ c main_arg1 (by decide)).trans (w4_a1 m ρ c)
theorem w6_a1 : W6 m ρ c (Proc.devRef .tc main_arg1) = arg1 m c :=
  (keep3 (W5 m ρ c) main_arg1 (by decide)).trans (w5_a1 m ρ c)
theorem w7_a1 : W7 m ρ c (Proc.devRef .tc main_arg1) = arg1 m c :=
  (W7_of_ne m ρ c main_arg1 (by decide)).trans (w6_a1 m ρ c)
theorem w8_a1 : W8 m ρ c (Proc.devRef .tc main_arg1) = arg1 m c :=
  (keep4 (W7 m ρ c) main_arg1 (by decide)).trans (w7_a1 m ρ c)
theorem w9_a1 : W9 m ρ c (Proc.devRef .tc main_arg1) = arg1 m c :=
  (W9_of_ne m ρ c main_arg1 (by decide)).trans (w8_a1 m ρ c)
theorem w10_a1 : W10 m ρ c (Proc.devRef .tc main_arg1) = arg1 m c :=
  (keep5 (W9 m ρ c) main_arg1 (by decide)).trans (w9_a1 m ρ c)
theorem w11_a1 : W11 m ρ c (Proc.devRef .tc main_arg1) = arg1 m c :=
  (W11_of_ne m ρ c main_arg1 (by decide)).trans (w10_a1 m ρ c)
theorem w12_a1 : W12 m ρ c (Proc.devRef .tc main_arg1) = arg1 m c :=
  (W12_of_ne m ρ c main_arg1 (by decide)).trans (w11_a1 m ρ c)
theorem w13_a1 : W13 m ρ c (Proc.devRef .tc main_arg1) = arg1 m c :=
  (keep7 (W12 m ρ c) main_arg1 (by decide)).trans (w12_a1 m ρ c)
theorem w14_a1 : W14 m ρ c (Proc.devRef .tc main_arg1) = arg1 m c :=
  (W14_of_ne m ρ c main_arg1 (by decide)).trans (w13_a1 m ρ c)

/-! ## Argument 3, up to boundary 7 -/

theorem w1_a3 : W1 m ρ c (Proc.devRef .tc main_arg3) = arg3 m c :=
  (keep0 (W0 m ρ c) main_arg3 (by decide)).trans rfl
theorem w2_a3 : W2 m ρ c (Proc.devRef .tc main_arg3) = arg3 m c :=
  (W2_of_ne m ρ c main_arg3 (by decide)).trans (w1_a3 m ρ c)
theorem w3_a3 : W3 m ρ c (Proc.devRef .tc main_arg3) = arg3 m c :=
  (keep1 (W2 m ρ c) main_arg3 (by decide)).trans (w2_a3 m ρ c)
theorem w4_a3 : W4 m ρ c (Proc.devRef .tc main_arg3) = arg3 m c :=
  (W4_of_ne m ρ c main_arg3 (by decide)).trans (w3_a3 m ρ c)
theorem w5_a3 : W5 m ρ c (Proc.devRef .tc main_arg3) = arg3 m c :=
  (W5_of_ne m ρ c main_arg3 (by decide)).trans (w4_a3 m ρ c)
theorem w6_a3 : W6 m ρ c (Proc.devRef .tc main_arg3) = arg3 m c :=
  (keep3 (W5 m ρ c) main_arg3 (by decide)).trans (w5_a3 m ρ c)
theorem w7_a3 : W7 m ρ c (Proc.devRef .tc main_arg3) = arg3 m c :=
  (W7_of_ne m ρ c main_arg3 (by decide)).trans (w6_a3 m ρ c)

/-! ## Argument 4, up to boundary 1 -/

theorem w1_a4 : W1 m ρ c (Proc.devRef .tc main_arg4) = arg4 m c :=
  (keep0 (W0 m ρ c) main_arg4 (by decide)).trans rfl

/-! ## Argument 5, up to boundary 8 -/

theorem w1_a5 : W1 m ρ c (Proc.devRef .tc main_arg5) = arg5 m c :=
  (keep0 (W0 m ρ c) main_arg5 (by decide)).trans rfl
theorem w2_a5 : W2 m ρ c (Proc.devRef .tc main_arg5) = arg5 m c :=
  (W2_of_ne m ρ c main_arg5 (by decide)).trans (w1_a5 m ρ c)
theorem w3_a5 : W3 m ρ c (Proc.devRef .tc main_arg5) = arg5 m c :=
  (keep1 (W2 m ρ c) main_arg5 (by decide)).trans (w2_a5 m ρ c)
theorem w4_a5 : W4 m ρ c (Proc.devRef .tc main_arg5) = arg5 m c :=
  (W4_of_ne m ρ c main_arg5 (by decide)).trans (w3_a5 m ρ c)
theorem w5_a5 : W5 m ρ c (Proc.devRef .tc main_arg5) = arg5 m c :=
  (W5_of_ne m ρ c main_arg5 (by decide)).trans (w4_a5 m ρ c)
theorem w6_a5 : W6 m ρ c (Proc.devRef .tc main_arg5) = arg5 m c :=
  (keep3 (W5 m ρ c) main_arg5 (by decide)).trans (w5_a5 m ρ c)
theorem w7_a5 : W7 m ρ c (Proc.devRef .tc main_arg5) = arg5 m c :=
  (W7_of_ne m ρ c main_arg5 (by decide)).trans (w6_a5 m ρ c)
theorem w8_a5 : W8 m ρ c (Proc.devRef .tc main_arg5) = arg5 m c :=
  (keep4 (W7 m ρ c) main_arg5 (by decide)).trans (w7_a5 m ρ c)

/-! ## Argument 6, up to boundary 8 -/

theorem w1_a6 : W1 m ρ c (Proc.devRef .tc main_arg6) = arg6 m c :=
  (keep0 (W0 m ρ c) main_arg6 (by decide)).trans rfl
theorem w2_a6 : W2 m ρ c (Proc.devRef .tc main_arg6) = arg6 m c :=
  ((W2_arr m ρ c 1).trans (((dat0 (V1 m ρ) c).arrAt_in 1 rfl _).trans (A_eq0 (V1 m ρ) c 1))).trans (w1_a6 m ρ c)
theorem w3_a6 : W3 m ρ c (Proc.devRef .tc main_arg6) = arg6 m c :=
  (keep1 (W2 m ρ c) main_arg6 (by decide)).trans (w2_a6 m ρ c)
theorem w4_a6 : W4 m ρ c (Proc.devRef .tc main_arg6) = arg6 m c :=
  (W4_of_ne m ρ c main_arg6 (by decide)).trans (w3_a6 m ρ c)
theorem w5_a6 : W5 m ρ c (Proc.devRef .tc main_arg6) = arg6 m c :=
  (W5_of_ne m ρ c main_arg6 (by decide)).trans (w4_a6 m ρ c)
theorem w6_a6 : W6 m ρ c (Proc.devRef .tc main_arg6) = arg6 m c :=
  (keep3 (W5 m ρ c) main_arg6 (by decide)).trans (w5_a6 m ρ c)
theorem w7_a6 : W7 m ρ c (Proc.devRef .tc main_arg6) = arg6 m c :=
  (W7_of_ne m ρ c main_arg6 (by decide)).trans (w6_a6 m ρ c)
theorem w8_a6 : W8 m ρ c (Proc.devRef .tc main_arg6) = arg6 m c :=
  (keep4 (W7 m ρ c) main_arg6 (by decide)).trans (w7_a6 m ρ c)

/-! ## Argument 7, up to boundary 11 -/

theorem w1_a7 : W1 m ρ c (Proc.devRef .tc main_arg7) = arg7 m c :=
  (keep0 (W0 m ρ c) main_arg7 (by decide)).trans rfl
theorem w2_a7 : W2 m ρ c (Proc.devRef .tc main_arg7) = arg7 m c :=
  (W2_of_ne m ρ c main_arg7 (by decide)).trans (w1_a7 m ρ c)
theorem w3_a7 : W3 m ρ c (Proc.devRef .tc main_arg7) = arg7 m c :=
  (keep1 (W2 m ρ c) main_arg7 (by decide)).trans (w2_a7 m ρ c)
theorem w4_a7 : W4 m ρ c (Proc.devRef .tc main_arg7) = arg7 m c :=
  (W4_of_ne m ρ c main_arg7 (by decide)).trans (w3_a7 m ρ c)
theorem w5_a7 : W5 m ρ c (Proc.devRef .tc main_arg7) = arg7 m c :=
  ((W5_arr m ρ c 1).trans (((dat2 (V4 m ρ) c).arrAt_in 1 rfl _).trans (A_eq2 (V4 m ρ) c 1))).trans (w4_a7 m ρ c)
theorem w6_a7 : W6 m ρ c (Proc.devRef .tc main_arg7) = arg7 m c :=
  (keep3 (W5 m ρ c) main_arg7 (by decide)).trans (w5_a7 m ρ c)
theorem w7_a7 : W7 m ρ c (Proc.devRef .tc main_arg7) = arg7 m c :=
  (W7_of_ne m ρ c main_arg7 (by decide)).trans (w6_a7 m ρ c)
theorem w8_a7 : W8 m ρ c (Proc.devRef .tc main_arg7) = arg7 m c :=
  (keep4 (W7 m ρ c) main_arg7 (by decide)).trans (w7_a7 m ρ c)
theorem w9_a7 : W9 m ρ c (Proc.devRef .tc main_arg7) = arg7 m c :=
  (W9_of_ne m ρ c main_arg7 (by decide)).trans (w8_a7 m ρ c)
theorem w10_a7 : W10 m ρ c (Proc.devRef .tc main_arg7) = arg7 m c :=
  (keep5 (W9 m ρ c) main_arg7 (by decide)).trans (w9_a7 m ρ c)
theorem w11_a7 : W11 m ρ c (Proc.devRef .tc main_arg7) = arg7 m c :=
  (W11_of_ne m ρ c main_arg7 (by decide)).trans (w10_a7 m ρ c)

end Cert.Bridge.Chain

end
-- ==== Proof.Spec.lean ====
/-
  The two whole-array functions the kernel regions compute, index by index on the extended reals.
  A node-feature array is 100000 x 128, a weight 128 x 128.
  * `matProd x w`: entry (p, q) is the sum over k of x[p, k] * w[k, q] (the dense transform x @ W; rounding the
    operands to a narrower format first changes nothing on the extended reals).
  * `reluAdd a h`: entry i is max (a i + h i) 0 (the residual followed by the rectifier).
-/
import Idealize.ShloMosaic.PureOps.Ideal
import Idealize.ShloMosaic.Lib.ValueIdx

noncomputable section

open scoped BigOperators

namespace Cert.Bridge.Spec

open Idealize.ShloMosaic Idealize.ShloMosaic.ValueIdx

/-- The shape of a node-feature array. -/
abbrev Nodes : Shape := ⟨2, ![100000, 128]⟩
/-- The shape of a layer's weight. -/
abbrev Wt : Shape := ⟨2, ![128, 128]⟩

/-- The dense transform: entry (p, q) is the sum over k of x[p, k] * w[k, q]. -/
def matProd (x : Nodes.Idx → EReal) (w : Wt.Idx → EReal) : Nodes.Idx → EReal :=
  fun i => ∑ k : Fin 128, x (ix2 (i 0 : Fin 100000) k) * w (ix2 k (i 1 : Fin 128))

theorem matProd_ix2 (x : Nodes.Idx → EReal) (w : Wt.Idx → EReal) (p : Fin 100000) (q : Fin 128) :
    matProd x w (ix2 p q) = ∑ k : Fin 128, x (ix2 p k) * w (ix2 k q) := rfl

/-- The residual and rectifier: entry i is max (a i + h i) 0, the zero spelt as the word the programs carry. -/
def reluAdd (a h : Nodes.Idx → EReal) : Nodes.Idx → EReal :=
  fun i => max (a i + h i) (Ideal.ofBits .f32 0x00000000#32)

theorem reluAdd_apply (a h : Nodes.Idx → EReal) (i : Nodes.Idx) :
    reluAdd a h i = max (a i + h i) (Ideal.ofBits .f32 0x00000000#32) := rfl

end Cert.Bridge.Spec

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.RefSide.lean ====
/-
  The reference's two layer stages as the specification's functions, on the extended reals.
  * The host's product of a 100000 x 128 array with a 128 x 128 weight, contracting the left operand's second axis
    with the right operand's first, is entry by entry the sum over k of x[p, k] * w[k, q].
  * The host's rectifier, the maximum of an array with the zero scalar spread over the shape, applied to a sum of two
    arrays, is entry by entry max (a i + h i) 0.
-/
import proofs.«124893_j10479720202575_1_alg».proof.Proof.Gen.ReferenceIdeal.Read
import proofs.«124893_j10479720202575_1_alg».proof.Proof.Spec
import proofs.«124893_j10479720202575_1_alg».proof.Proof.LibMatmul

noncomputable section

namespace Cert.Bridge.RefSide

open Idealize.ShloMosaic Idealize.ShloMosaic.ValueIdx
open Cert.ReferenceIdeal Cert.ReferenceIdeal.Read Cert.ReferenceIdeal.Facts₀ Cert.ReferenceIdeal.Facts

/-- The reference's dimension record is the plain M x K by K x N one. -/
theorem dot_plain : dot_S100000x128_S128x128_S100000x128_1_0_0_1_n_n = DotDims.plain 100000 128 128 := rfl

/-- The host's dense transform is the specification's, entry by entry. -/
theorem dot_eq (x : FVec Ideal S100000x128 .f32) (w : FVec Ideal S128x128 .f32) :
    Host.dotGeneral (F := Ideal) dot_S100000x128_S128x128_S100000x128_1_0_0_1_n_n none x w = Cert.Bridge.Spec.matProd x w := by
  funext i
  obtain ⟨p, q, rfl⟩ : ∃ (p : Fin 100000) (q : Fin 128), i = ix2 p q := ⟨i 0, i 1, eq_ix2 i⟩
  rw [Cert.Bridge.Spec.matProd_ix2, dot_plain]
  exact Cert.Bridge.LibMatmul.dotGeneral_apply none _ x w p q

/-- The zero scalar spread over the node shape reads the zero word's value everywhere. -/
theorem zeros_apply (i : S100000x128.Idx) :
    broadcastInDim S100000x128 ![] bcast_S_S100000x128 (constant (F := Ideal) S_ .f32 0x00000000#32) i
      = Ideal.ofBits .f32 0x00000000#32 := by
  rw [broadcastInDim_apply _ bcast_S_S100000x128 _ i (fun a => a.elim0) (fun a => a.elim0)]
  rfl

/-- The host's residual and rectifier is the specification's, entry by entry. -/
theorem relu_eq (a h : FVec Ideal S100000x128 .f32) :
    maximumf (F := Ideal) (addf a h) (broadcastInDim S100000x128 ![] bcast_S_S100000x128 (constant (F := Ideal) S_ .f32 0x00000000#32))
      = Cert.Bridge.Spec.reluAdd a h := by
  funext i
  rw [maximumf_apply, addf_apply, zeros_apply, Cert.Bridge.Spec.reluAdd_apply]

/-! ## The eight layer stages of the reference, over its own stage functions

  The reference's stages are numbered as its program prints them; graph one's two layers are stages 27 / 42 and 43 / 58,
  graph two's 86 / 101 and 102 / 117. Each transform is the specification's product of the stage before it with the
  layer's weight; each rectifier stage is the specification's residual of the aggregate (a scatter-add stage) with the
  transform. -/

section Stages

variable (x2 x3 : (⟨S2x1600000, .i32⟩ : BufTy).Contents (Elt Ideal)) (x4 x5 : FVec Ideal S100000x128 .f32) (x6 x7 : FVec Ideal S128x128 .f32)

theorem v27_eq : val_main_v27 (F := Ideal) x4 x6 = Cert.Bridge.Spec.matProd x4 x6 := dot_eq x4 x6

theorem v42_eq : val_main_v42 (F := Ideal) x2 x4 x6
    = Cert.Bridge.Spec.reluAdd (val_main_v40 (F := Ideal) x2 x4 x6) (val_main_v27 (F := Ideal) x4 x6) := by
  unfold val_main_v42 val_main_v41 val_main_call0_v0 val_main_call0_cst
  exact relu_eq _ _

theorem v43_eq : val_main_v43 (F := Ideal) x2 x4 x6 x7 = Cert.Bridge.Spec.matProd (val_main_v42 (F := Ideal) x2 x4 x6) x7 :=
  dot_eq _ x7

theorem v58_eq : val_main_v58 (F := Ideal) x2 x4 x6 x7
    = Cert.Bridge.Spec.reluAdd (val_main_v56 (F := Ideal) x2 x4 x6 x7) (val_main_v43 (F := Ideal) x2 x4 x6 x7) := by
  unfold val_main_v58 val_main_v57 val_main_call1_v0 val_main_call1_cst
  exact relu_eq _ _

theorem v86_eq : val_main_v86 (F := Ideal) x5 x6 = Cert.Bridge.Spec.matProd x5 x6 := dot_eq x5 x6

theorem v101_eq : val_main_v101 (F := Ideal) x3 x5 x6
    = Cert.Bridge.Spec.reluAdd (val_main_v99 (F := Ideal) x3 x5 x6) (val_main_v86 (F := Ideal) x5 x6) := by
  unfold val_main_v101 val_main_v100 val_main_call2_v0 val_main_call2_cst
  exact relu_eq _ _

theorem v102_eq : val_main_v102 (F := Ideal) x3 x5 x6 x7 = Cert.Bridge.Spec.matProd (val_main_v101 (F := Ideal) x3 x5 x6) x7 :=
  dot_eq _ x7

theorem v117_eq : val_main_v117 (F := Ideal) x3 x5 x6 x7
    = Cert.Bridge.Spec.reluAdd (val_main_v115 (F := Ideal) x3 x5 x6 x7) (val_main_v102 (F := Ideal) x3 x5 x6 x7) := by
  unfold val_main_v117 val_main_v116 val_main_call3_v0 val_main_call3_cst
  exact relu_eq _ _

end Stages

end Cert.Bridge.RefSide

end
-- ==== Proof.MatRegion0.lean ====
/-
  A dense-transform region of the kernel, read as one function of the arrays it finds. The region walks 25 blocks of
  4000 rows of a 100000 x 128 array; at each block it multiplies the block by the whole 128 x 128 weight into a zero
  accumulator and writes the 4000 x 128 result back over the same rows of the output array. On the extended reals
  rounding the operands to a narrower format is the identity, so entry (p, q) of a block's result is the sum over k of
  x[4000 t + p, k] * w[k, q], and since every row lies in exactly the block numbered by its quotient by 4000 the output
  array ends as the product x @ w, index by index.
-/
import proofs.«124893_j10479720202575_1_alg».proof.Proof.Gen.KernelIdeal.Frame
import proofs.«124893_j10479720202575_1_alg».proof.Proof.Spec
import proofs.«124893_j10479720202575_1_alg».proof.Proof.LibMatmul
import Idealize.ShloMosaic.Lib.ValueIdx
import Idealize.ShloMosaic.Lib.Pipeline.Value

noncomputable section

open scoped BigOperators

namespace Cert.Bridge.MatRegion0

open Idealize.ShloMosaic Idealize.ShloMosaic.TcCoe Idealize.ShloMosaic.ValueIdx Idealize.SL.Sem Cert.KernelIdeal Cert.KernelIdeal.Gen

/-- The printed dimension numbers are those of a plain 4000 x 128 by 128 x 128 product. -/
theorem dot_plain : dot_S4000x128_S128x128_S4000x128_1_0_0_1_n_n = DotDims.plain 4000 128 128 := rfl

/-- The body's arithmetic at entry (p, q): rounding to the narrower format is the identity on the extended reals and the
    accumulator is zero, so the entry is the sum over k of x0[p, k] * x1[k, q]. -/
theorem pay (x0 : Vec Ideal S4000x128 .f32) (x1 : Vec Ideal S128x128 .f32) (p : Fin 4000) (q : Fin 128) :
    k0_pay1 x0 x1 (ix2 p q) = ∑ k : Fin 128, x0 (ix2 p k) * x1 (ix2 k q) := by
  unfold k0_pay1
  rw [dot_plain]
  exact Cert.Bridge.LibMatmul.matmul_zero_apply none (truncf .bf16 x0 bitsLt_bf16_f32) (truncf .bf16 x1 bitsLt_bf16_f32) p q

theorem hz : (![0, 0] : Fin 2 → Nat) = fun _ => 0 := funext fun a => by fin_cases a <;> rfl

/-- The index maps over the grid: at point t the row windows are at block (t, 0), the weight window at block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- An index of the array is in point t's block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v27).slice (win0_2.rect t)).set ↔ _
  rw [View.set_slice_whole, Rect.mem_set_unit]
  exact Iff.rfl

/-- Every row lies in the block of the point numbered by its quotient by 4000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, e4, e5⟩ := idx_facts t
  have ht : t.val = (i 0).val / 4000 := rfl
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

set_option maxHeartbeats 400000 in
/-- What point t writes back is block t of the product of the two arrays as the region finds them: entry (p, q) of the
    block is row 4000 t + p of the first array against column q of the second. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Bridge.Spec.matProd (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  obtain ⟨e0, e1, e2, e3, e4, e5⟩ := idx_facts t
  funext (y : S4000x128.Idx)
  obtain ⟨p, q, rfl⟩ : ∃ (p : Fin 4000) (q : Fin 128), y = ix2 p q := ⟨y 0, y 1, eq_ix2 y⟩
  show k0_pay1 (iblk0 V c 0 t) (iblk0 V c 1 t) (ix2 p q)
    = Cert.Bridge.Spec.matProd (V c (Pipeline.arrRef spec0 0)) (V c (Pipeline.arrRef spec0 1)) (((cfg0.win 2).blk t).view.emb (ix2 p q))
  refine (pay (iblk0 V c 0 t) (iblk0 V c 1 t) p q).trans ?_
  refine Finset.sum_congr rfl fun k _ => ?_
  refine congrArg₂ (· * ·) ?_ ?_
  · show V c (Pipeline.arrRef spec0 0) (((cfg0.win 0).blk t).view.emb (ix2 p k)) = V c (Pipeline.arrRef spec0 0) _
    refine congrArg _ ?_
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  · show V c (Pipeline.arrRef spec0 1) (((cfg0.win 1).blk t).view.emb (ix2 k q)) = V c (Pipeline.arrRef spec0 1) _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- The array after the region: every row is in some point's block, so the whole array is the product. -/
theorem arr (V : (c : Dev nD) → (b : Ref sig .tc) → Buf (Elt Ideal) ((c : Thread nD τ).loc b)) (c : Dev nD) :
    (dat0 (F := Ideal) V c).arrAt 2 cfg0.N
      = Cert.Bridge.Spec.matProd (V c (Pipeline.arrRef spec0 0)) (V c (Pipeline.arrRef spec0 1)) :=
  (dat0 (F := Ideal) V c).arrAt_eq_of_cover 2
    (Cert.Bridge.Spec.matProd (V c (Pipeline.arrRef spec0 0)) (V c (Pipeline.arrRef spec0 1)))
    (fun t _ => flushed_eq V c t) cover

end Cert.Bridge.MatRegion0

end
-- ==== Proof.ReluRegion1.lean ====
/-
  Region 1 (the residual followed by the rectifier) as one whole-array function.
  The region's grid has 25 points; point t reads rows 4000 t … 4000 t + 3999 of its two input arrays and
  writes back the same rows of its output. The body is pointwise: at a block coordinate y it is
  max (x0 y + x1 y) 0. All three windows move together (block index (t, 0)), so input block t at y and
  output block t at y are the same array index, and the 25 blocks tile the 100000 rows: row r is in
  the block of point r / 4000. Hence the output array ends holding max (a i + h i) 0 at every index i.
-/
import proofs.«124893_j10479720202575_1_alg».proof.Proof.Gen.KernelIdeal.Frame
import proofs.«124893_j10479720202575_1_alg».proof.Proof.Spec
import Idealize.ShloMosaic.Lib.Pipeline.Value
import Idealize.ShloMosaic.Lib.ValueIdx

noncomputable section

namespace Cert.Bridge.ReluRegion1

open Idealize.ShloMosaic Idealize.ShloMosaic.TcCoe Idealize.ShloMosaic.ValueIdx Idealize.SL.Sem Cert.KernelIdeal Cert.KernelIdeal.Gen
open Idealize.ShloMosaic.Pipeline (Dat)

/-- The zero offset of the body's one store, as a constant function. -/
theorem hz : (![0, 0] : Fin 2 → Nat) = fun _ => 0 := funext fun a => by fin_cases a <;> rfl

/-- The body on two loaded blocks, coordinate by coordinate: the sum, then the maximum with the zero word's value
    (the two shape casts are between equal shapes, so they are the identity). -/
theorem pay_eq (x0 x1 : Vec Ideal S4000x128 .f32) :
    k1_pay1 x0 x1 = fun y => max (x0 y + x1 y) (Ideal.ofBits .f32 0x00000000#32) := by
  unfold k1_pay1
  rw [shapeCast_self, shapeCast_self]
  rfl

/-- One entry: when both input blocks' entries sit at the output entry's array index, the body's value there is the
    whole-array function's. -/
theorem point_eq (a h : Cert.Bridge.Spec.Nodes.Idx → EReal) (i0 i1 i2 : Cert.Bridge.Spec.Nodes.Idx)
    (e0 : i0 = i2) (e1 : i1 = i2) :
    max (a i0 + h i1) (Ideal.ofBits .f32 0x00000000#32) = Cert.Bridge.Spec.reluAdd a h i2 := by
  rw [e0, e1]; rfl

/-- The block index of every window at point t is (t, 0): decided over the 25 points. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the whole-array function of the two input arrays as the region finds them. -/
theorem flushed_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal)
          (Cert.Bridge.Spec.reluAdd (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S4000x128) hz]
  rw [pay_eq]
  obtain ⟨e0, e1, e2, e3, e4, e5⟩ := idx_facts t
  funext j
  have h0 : ((cfg1.win 0).blk t).view.emb j = ((cfg1.win 2).blk t).view.emb j := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 128 + 1 * (j 1).val = win1_2.index t (1 : Fin 2) * 128 + 1 * (j 1).val; omega
  exact point_eq (V c (Pipeline.arrRef spec1 0)) (V c (Pipeline.arrRef spec1 1))
    (((cfg1.win 0).blk t).view.emb j) (((cfg1.win 1).blk t).view.emb j) (((cfg1.win 2).blk t).view.emb j) h0 h1

/-- An index of the array is in point t's output block iff each coordinate is in the block's range on its axis. -/
theorem mem_blk (t : Fin cfg1.N) (i : Cert.Bridge.Spec.Nodes.Idx) :
    i ∈ ((cfg1.win 2).blk t).view.set
      ↔ ∀ a : Fin 2, win1_2.index t a * S4000x128.size a ≤ (i a).val
          ∧ (i a).val < win1_2.index t a * S4000x128.size a + S4000x128.size a := by
  show i ∈ ((View.whole main_v41).slice (win1_2.rect t)).set ↔ _
  rw [View.set_slice_whole, Rect.mem_set_unit]
  exact Iff.rfl

/-- Every index is in some point's output block: row r is in the block of point r / 4000. -/
theorem cover (i : Cert.Bridge.Spec.Nodes.Idx) :
    ∃ t : Fin cfg1.N, (cfg1.win 2).flush t = true ∧ i ∈ ((cfg1.win 2).blk t).view.set := by
  have hN : cfg1.N = 25 := N_1
  have hi0 : (i 0).val < 100000 := (i 0).isLt
  have hi1 : (i 1).val < 128 := (i 1).isLt
  have hlt : (i 0).val / 4000 < cfg1.N := by rw [hN]; omega
  obtain ⟨-, -, -, -, e4, e5⟩ := idx_facts ⟨(i 0).val / 4000, hlt⟩
  have e4' : win1_2.index ⟨(i 0).val / 4000, hlt⟩ (0 : Fin 2) = (i 0).val / 4000 := e4
  refine ⟨⟨(i 0).val / 4000, hlt⟩, flush1_2 _, ?_⟩
  rw [mem_blk]
  intro a
  match a with
  | ⟨0, _⟩ =>
    show win1_2.index ⟨(i 0).val / 4000, hlt⟩ (0 : Fin 2) * 4000 ≤ (i 0).val
      ∧ (i 0).val < win1_2.index ⟨(i 0).val / 4000, hlt⟩ (0 : Fin 2) * 4000 + 4000
    omega
  | ⟨1, _⟩ =>
    show win1_2.index ⟨(i 0).val / 4000, hlt⟩ (1 : Fin 2) * 128 ≤ (i 1).val
      ∧ (i 1).val < win1_2.index ⟨(i 0).val / 4000, hlt⟩ (1 : Fin 2) * 128 + 128
    omega

/-- The region's output array after its 25 points: max (a i + h i) 0 at every index, a and h the two input arrays
    as the region finds them. -/
theorem arr (V : (c : Dev nD) → (b : Ref sig .tc) → Buf (Elt Ideal) ((c : Thread nD τ).loc b)) (c : Dev nD) :
    (dat1 (F := Ideal) V c).arrAt 2 cfg1.N
      = Cert.Bridge.Spec.reluAdd (V c (Pipeline.arrRef spec1 0)) (V c (Pipeline.arrRef spec1 1)) :=
  (dat1 (F := Ideal) V c).arrAt_eq_of_cover 2
    (Cert.Bridge.Spec.reluAdd (V c (Pipeline.arrRef spec1 0)) (V c (Pipeline.arrRef spec1 1)))
    (fun t _ => flushed_eq V c t) cover

end Cert.Bridge.ReluRegion1

end
-- ==== Proof.MatRegion2.lean ====
/-
  A dense-transform region of the kernel, read as one function of the arrays it finds. The region walks 25 blocks of
  4000 rows of a 100000 x 128 array; at each block it multiplies the block by the whole 128 x 128 weight into a zero
  accumulator and writes the 4000 x 128 result back over the same rows of the output array. On the extended reals
  rounding the operands to a narrower format is the identity, so entry (p, q) of a block's result is the sum over k of
  x[4000 t + p, k] * w[k, q], and since every row lies in exactly the block numbered by its quotient by 4000 the output
  array ends as the product x @ w, index by index.
-/
import proofs.«124893_j10479720202575_1_alg».proof.Proof.Gen.KernelIdeal.Frame
import proofs.«124893_j10479720202575_1_alg».proof.Proof.Spec
import proofs.«124893_j10479720202575_1_alg».proof.Proof.LibMatmul
import Idealize.ShloMosaic.Lib.ValueIdx
import Idealize.ShloMosaic.Lib.Pipeline.Value

noncomputable section

open scoped BigOperators

namespace Cert.Bridge.MatRegion2

open Idealize.ShloMosaic Idealize.ShloMosaic.TcCoe Idealize.ShloMosaic.ValueIdx Idealize.SL.Sem Cert.KernelIdeal Cert.KernelIdeal.Gen

/-- The printed dimension numbers are those of a plain 4000 x 128 by 128 x 128 product. -/
theorem dot_plain : dot_S4000x128_S128x128_S4000x128_1_0_0_1_n_n = DotDims.plain 4000 128 128 := rfl

/-- The body's arithmetic at entry (p, q): the reshape to the same shape is the identity, rounding to the narrower
    format is the identity on the extended reals and the accumulator is zero, so the entry is the sum over k of x0[p, k] * x1[k, q]. -/
theorem pay (x0 : Vec Ideal S4000x128 .f32) (x1 : Vec Ideal S128x128 .f32) (p : Fin 4000) (q : Fin 128) :
    k2_pay1 x0 x1 (ix2 p q) = ∑ k : Fin 128, x0 (ix2 p k) * x1 (ix2 k q) := by
  unfold k2_pay1
  rw [dot_plain, shapeCast_self]
  exact Cert.Bridge.LibMatmul.matmul_zero_apply none (truncf .bf16 x0 bitsLt_bf16_f32) (truncf .bf16 x1 bitsLt_bf16_f32) p q

theorem hz : (![0, 0] : Fin 2 → Nat) = fun _ => 0 := funext fun a => by fin_cases a <;> rfl

/-- The index maps over the grid: at point t the row windows are at block (t, 0), the weight window at block (0, 0). -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- An index of the array is in point t's block iff each coordinate is in the block's range on its axis. -/
theorem mem_blk (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v42).slice (win2_2.rect t)).set ↔ _
  rw [View.set_slice_whole, Rect.mem_set_unit]
  exact Iff.rfl

/-- Every row lies in the block of the point numbered by its quotient by 4000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 25 := N_2
  let t : Fin cfg2.N := ⟨(i 0).val / 4000, by rw [hN]; omega⟩
  obtain ⟨-, -, -, -, e4, e5⟩ := idx_facts t
  have ht : t.val = (i 0).val / 4000 := rfl
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

set_option maxHeartbeats 400000 in
/-- What point t writes back is block t of the product of the two arrays as the region finds them: entry (p, q) of the
    block is row 4000 t + p of the first array against column q of the second. -/
theorem flushed_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Bridge.Spec.matProd (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x128) hz]
  obtain ⟨e0, e1, e2, e3, e4, e5⟩ := idx_facts t
  funext (y : S4000x128.Idx)
  obtain ⟨p, q, rfl⟩ : ∃ (p : Fin 4000) (q : Fin 128), y = ix2 p q := ⟨y 0, y 1, eq_ix2 y⟩
  show k2_pay1 (iblk2 V c 0 t) (iblk2 V c 1 t) (ix2 p q)
    = Cert.Bridge.Spec.matProd (V c (Pipeline.arrRef spec2 0)) (V c (Pipeline.arrRef spec2 1)) (((cfg2.win 2).blk t).view.emb (ix2 p q))
  refine (pay (iblk2 V c 0 t) (iblk2 V c 1 t) p q).trans ?_
  refine Finset.sum_congr rfl fun k _ => ?_
  refine congrArg₂ (· * ·) ?_ ?_
  · show V c (Pipeline.arrRef spec2 0) (((cfg2.win 0).blk t).view.emb (ix2 p k)) = V c (Pipeline.arrRef spec2 0) _
    refine congrArg _ ?_
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * k.val = k.val; omega
  · show V c (Pipeline.arrRef spec2 1) (((cfg2.win 1).blk t).view.emb (ix2 k q)) = V c (Pipeline.arrRef spec2 1) _
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- The array after the region: every row is in some point's block, so the whole array is the product. -/
theorem arr (V : (c : Dev nD) → (b : Ref sig .tc) → Buf (Elt Ideal) ((c : Thread nD τ).loc b)) (c : Dev nD) :
    (dat2 (F := Ideal) V c).arrAt 2 cfg2.N
      = Cert.Bridge.Spec.matProd (V c (Pipeline.arrRef spec2 0)) (V c (Pipeline.arrRef spec2 1)) :=
  (dat2 (F := Ideal) V c).arrAt_eq_of_cover 2
    (Cert.Bridge.Spec.matProd (V c (Pipeline.arrRef spec2 0)) (V c (Pipeline.arrRef spec2 1)))
    (fun t _ => flushed_eq V c t) cover

end Cert.Bridge.MatRegion2

end
-- ==== Proof.ReluRegion3.lean ====
/-
  Region 3 (the residual followed by the rectifier) as one whole-array function.
  The region's grid has 25 points; point t reads rows 4000 t … 4000 t + 3999 of its two input arrays and
  writes back the same rows of its output. The body is pointwise: at a block coordinate y it is
  max (x0 y + x1 y) 0. All three windows move together (block index (t, 0)), so input block t at y and
  output block t at y are the same array index, and the 25 blocks tile the 100000 rows: row r is in
  the block of point r / 4000. Hence the output array ends holding max (a i + h i) 0 at every index i.
-/
import proofs.«124893_j10479720202575_1_alg».proof.Proof.Gen.KernelIdeal.Frame
import proofs.«124893_j10479720202575_1_alg».proof.Proof.Spec
import Idealize.ShloMosaic.Lib.Pipeline.Value
import Idealize.ShloMosaic.Lib.ValueIdx

noncomputable section

namespace Cert.Bridge.ReluRegion3

open Idealize.ShloMosaic Idealize.ShloMosaic.TcCoe Idealize.ShloMosaic.ValueIdx Idealize.SL.Sem Cert.KernelIdeal Cert.KernelIdeal.Gen
open Idealize.ShloMosaic.Pipeline (Dat)

/-- The zero offset of the body's one store, as a constant function. -/
theorem hz : (![0, 0] : Fin 2 → Nat) = fun _ => 0 := funext fun a => by fin_cases a <;> rfl

/-- The body on two loaded blocks, coordinate by coordinate: the sum, then the maximum with the zero word's value
    (the two shape casts are between equal shapes, so they are the identity). -/
theorem pay_eq (x0 x1 : Vec Ideal S4000x128 .f32) :
    k3_pay1 x0 x1 = fun y => max (x0 y + x1 y) (Ideal.ofBits .f32 0x00000000#32) := by
  unfold k3_pay1
  rw [shapeCast_self, shapeCast_self]
  rfl

/-- One entry: when both input blocks' entries sit at the output entry's array index, the body's value there is the
    whole-array function's. -/
theorem point_eq (a h : Cert.Bridge.Spec.Nodes.Idx → EReal) (i0 i1 i2 : Cert.Bridge.Spec.Nodes.Idx)
    (e0 : i0 = i2) (e1 : i1 = i2) :
    max (a i0 + h i1) (Ideal.ofBits .f32 0x00000000#32) = Cert.Bridge.Spec.reluAdd a h i2 := by
  rw [e0, e1]; rfl

/-- The block index of every window at point t is (t, 0): decided over the 25 points. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the whole-array function of the two input arrays as the region finds them. -/
theorem flushed_eq (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal)
          (Cert.Bridge.Spec.reluAdd (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S4000x128) hz]
  rw [pay_eq]
  obtain ⟨e0, e1, e2, e3, e4, e5⟩ := idx_facts t
  funext j
  have h0 : ((cfg3.win 0).blk t).view.emb j = ((cfg3.win 2).blk t).view.emb j := by
    funext a; apply Fin.ext
    match a with
    | ⟨0, _⟩ => show win3_0.index t (0 : Fin 2) * 4000 + 1 * (j 0).val = win3_2.index t (0 : Fin 2) * 4000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 4000 + 1 * (j 0).val = win3_2.index t (0 : Fin 2) * 4000 + 1 * (j 0).val; omega
    | ⟨1, _⟩ => show win3_1.index t (1 : Fin 2) * 128 + 1 * (j 1).val = win3_2.index t (1 : Fin 2) * 128 + 1 * (j 1).val; omega
  exact point_eq (V c (Pipeline.arrRef spec3 0)) (V c (Pipeline.arrRef spec3 1))
    (((cfg3.win 0).blk t).view.emb j) (((cfg3.win 1).blk t).view.emb j) (((cfg3.win 2).blk t).view.emb j) h0 h1

/-- An index of the array is in point t's output block iff each coordinate is in the block's range on its axis. -/
theorem mem_blk (t : Fin cfg3.N) (i : Cert.Bridge.Spec.Nodes.Idx) :
    i ∈ ((cfg3.win 2).blk t).view.set
      ↔ ∀ a : Fin 2, win3_2.index t a * S4000x128.size a ≤ (i a).val
          ∧ (i a).val < win3_2.index t a * S4000x128.size a + S4000x128.size a := by
  show i ∈ ((View.whole main_v56).slice (win3_2.rect t)).set ↔ _
  rw [View.set_slice_whole, Rect.mem_set_unit]
  exact Iff.rfl

/-- Every index is in some point's output block: row r is in the block of point r / 4000. -/
theorem cover (i : Cert.Bridge.Spec.Nodes.Idx) :
    ∃ t : Fin cfg3.N, (cfg3.win 2).flush t = true ∧ i ∈ ((cfg3.win 2).blk t).view.set := by
  have hN : cfg3.N = 25 := N_3
  have hi0 : (i 0).val < 100000 := (i 0).isLt
  have hi1 : (i 1).val < 128 := (i 1).isLt
  have hlt : (i 0).val / 4000 < cfg3.N := by rw [hN]; omega
  obtain ⟨-, -, -, -, e4, e5⟩ := idx_facts ⟨(i 0).val / 4000, hlt⟩
  have e4' : win3_2.index ⟨(i 0).val / 4000, hlt⟩ (0 : Fin 2) = (i 0).val / 4000 := e4
  refine ⟨⟨(i 0).val / 4000, hlt⟩, flush3_2 _, ?_⟩
  rw [mem_blk]
  intro a
  match a with
  | ⟨0, _⟩ =>
    show win3_2.index ⟨(i 0).val / 4000, hlt⟩ (0 : Fin 2) * 4000 ≤ (i 0).val
      ∧ (i 0).val < win3_2.index ⟨(i 0).val / 4000, hlt⟩ (0 : Fin 2) * 4000 + 4000
    omega
  | ⟨1, _⟩ =>
    show win3_2.index ⟨(i 0).val / 4000, hlt⟩ (1 : Fin 2) * 128 ≤ (i 1).val
      ∧ (i 1).val < win3_2.index ⟨(i 0).val / 4000, hlt⟩ (1 : Fin 2) * 128 + 128
    omega

/-- The region's output array after its 25 points: max (a i + h i) 0 at every index, a and h the two input arrays
    as the region finds them. -/
theorem arr (V : (c : Dev nD) → (b : Ref sig .tc) → Buf (Elt Ideal) ((c : Thread nD τ).loc b)) (c : Dev nD) :
    (dat3 (F := Ideal) V c).arrAt 2 cfg3.N
      = Cert.Bridge.Spec.reluAdd (V c (Pipeline.arrRef spec3 0)) (V c (Pipeline.arrRef spec3 1)) :=
  (dat3 (F := Ideal) V c).arrAt_eq_of_cover 2
    (Cert.Bridge.Spec.reluAdd (V c (Pipeline.arrRef spec3 0)) (V c (Pipeline.arrRef spec3 1)))
    (fun t _ => flushed_eq V c t) cover

end Cert.Bridge.ReluRegion3

end
-- ==== Proof.ChainA.lean ====
/- Graph one through the idealized kernel program, boundary by boundary (W1 … W7): each buffer that a later segment
  reads holds the named value. A host stretch's written buffer is the stretch's operations applied to the named values
  before it, which is how the reference's stage function is built from its own earlier stages; a transform region's
  output is the product of its input array with the weight, a rectifier region's the residual of the aggregate with
  the transform, and the reference's stage is the same function of the same values; every other live buffer passes
  through.
-/
import proofs.«124893_j10479720202575_1_alg».proof.Proof.Gen.KernelIdeal.Frame
import proofs.«124893_j10479720202575_1_alg».proof.Proof.Keep
import proofs.«124893_j10479720202575_1_alg».proof.Proof.Values
import proofs.«124893_j10479720202575_1_alg».proof.Proof.ChainArgs
import proofs.«124893_j10479720202575_1_alg».proof.Proof.RefSide
import proofs.«124893_j10479720202575_1_alg».proof.Proof.MatRegion0
import proofs.«124893_j10479720202575_1_alg».proof.Proof.ReluRegion1
import proofs.«124893_j10479720202575_1_alg».proof.Proof.MatRegion2
import proofs.«124893_j10479720202575_1_alg».proof.Proof.ReluRegion3

set_option maxRecDepth 16384

noncomputable section

namespace Cert.Bridge.Chain

open Idealize.ShloMosaic Idealize.ShloMosaic.TcCoe Idealize.SL.Sem Idealize.ShloMosaic.StableHlo
open Cert.KernelIdeal Cert.KernelIdeal.Gen Cert.Bridge.Keep Cert.Bridge.Values

variable (m : (ℓ : Loc nD τ sig) → Buf (Elt Ideal) ℓ) (ρ : Dev nD → PrngReg) (c : Dev nD)

/-! ## Boundary 1: after host stretch 0 -/

set_option maxHeartbeats 2000000 in
theorem w1_src1 : W1 m ρ c (Proc.devRef .tc main_v3) = src1 m c := by
  show StableHlo.after hostOps0 (W0 m ρ c) (Proc.devRef .tc main_v3) = _
  after_results_simp
  rfl
set_option maxHeartbeats 2000000 in
theorem w1_dst1 : W1 m ρ c (Proc.devRef .tc main_v6) = dst1 m c := by
  show StableHlo.after hostOps0 (W0 m ρ c) (Proc.devRef .tc main_v6) = _
  after_results_simp
  rfl
set_option maxHeartbeats 2000000 in
theorem w1_nrm1 : W1 m ρ c (Proc.devRef .tc main_v26) = nrm1 m c := by
  show StableHlo.after hostOps0 (W0 m ρ c) (Proc.devRef .tc main_v26) = _
  after_results_simp
  rfl

/-! ## Boundary 2: after kernel region 0 -/

theorem w2_src1 : W2 m ρ c (Proc.devRef .tc main_v3) = src1 m c :=
  (W2_of_ne m ρ c main_v3 (by decide)).trans (w1_src1 m ρ c)
theorem w2_dst1 : W2 m ρ c (Proc.devRef .tc main_v6) = dst1 m c :=
  (W2_of_ne m ρ c main_v6 (by decide)).trans (w1_dst1 m ρ c)
theorem w2_nrm1 : W2 m ρ c (Proc.devRef .tc main_v26) = nrm1 m c :=
  (W2_of_ne m ρ c main_v26 (by decide)).trans (w1_nrm1 m ρ c)
theorem w2_h1a : W2 m ρ c (Proc.devRef .tc main_v27) = h1a m c := by
  refine (W2_arr m ρ c 2).trans ?_
  rw [Cert.Bridge.MatRegion0.arr (V1 m ρ) c]
  refine (congrArg₂ Cert.Bridge.Spec.matProd (w1_a4 m ρ c) (w1_a6 m ρ c)).trans ?_
  exact (Cert.Bridge.RefSide.v27_eq _ _).symm

/-! ## Boundary 3: after host stretch 1 -/

theorem w3_src1 : W3 m ρ c (Proc.devRef .tc main_v3) = src1 m c :=
  (keep1 (W2 m ρ c) main_v3 (by decide)).trans (w2_src1 m ρ c)
theorem w3_dst1 : W3 m ρ c (Proc.devRef .tc main_v6) = dst1 m c :=
  (keep1 (W2 m ρ c) main_v6 (by decide)).trans (w2_dst1 m ρ c)
theorem w3_nrm1 : W3 m ρ c (Proc.devRef .tc main_v26) = nrm1 m c :=
  (keep1 (W2 m ρ c) main_v26 (by decide)).trans (w2_nrm1 m ρ c)
theorem w3_h1a : W3 m ρ c (Proc.devRef .tc main_v27) = h1a m c :=
  (keep1 (W2 m ρ c) main_v27 (by decide)).trans (w2_h1a m ρ c)
set_option maxHeartbeats 2000000 in
theorem w3_agg1a : W3 m ρ c (Proc.devRef .tc main_v40) = agg1a m c := by
  show StableHlo.after hostOps1 (W2 m ρ c) (Proc.devRef .tc main_v40) = _
  after_results_simp
  rw [w2_dst1 m ρ c, w2_nrm1 m ρ c, w2_h1a m ρ c, w2_src1 m ρ c]
  rfl

/-! ## Boundary 4: after kernel region 1 -/

theorem w4_src1 : W4 m ρ c (Proc.devRef .tc main_v3) = src1 m c :=
  (W4_of_ne m ρ c main_v3 (by decide)).trans (w3_src1 m ρ c)
theorem w4_dst1 : W4 m ρ c (Proc.devRef .tc main_v6) = dst1 m c :=
  (W4_of_ne m ρ c main_v6 (by decide)).trans (w3_dst1 m ρ c)
theorem w4_nrm1 : W4 m ρ c (Proc.devRef .tc main_v26) = nrm1 m c :=
  (W4_of_ne m ρ c main_v26 (by decide)).trans (w3_nrm1 m ρ c)
theorem w4_x1a : W4 m ρ c (Proc.devRef .tc main_v41) = x1a m c := by
  refine (W4_arr m ρ c 2).trans ?_
  rw [Cert.Bridge.ReluRegion1.arr (V3 m ρ) c]
  refine (congrArg₂ Cert.Bridge.Spec.reluAdd (w3_agg1a m ρ c) (w3_h1a m ρ c)).trans ?_
  exact (Cert.Bridge.RefSide.v42_eq _ _ _).symm

/-! ## Boundary 5: after kernel region 2 -/

theorem w5_src1 : W5 m ρ c (Proc.devRef .tc main_v3) = src1 m c :=
  (W5_of_ne m ρ c main_v3 (by decide)).trans (w4_src1 m ρ c)
theorem w5_dst1 : W5 m ρ c (Proc.devRef .tc main_v6) = dst1 m c :=
  (W5_of_ne m ρ c main_v6 (by decide)).trans (w4_dst1 m ρ c)
theorem w5_nrm1 : W5 m ρ c (Proc.devRef .tc main_v26) = nrm1 m c :=
  (W5_of_ne m ρ c main_v26 (by decide)).trans (w4_nrm1 m ρ c)
theorem w5_h1b : W5 m ρ c (Proc.devRef .tc main_v42) = h1b m c := by
  refine (W5_arr m ρ c 2).trans ?_
  rw [Cert.Bridge.MatRegion2.arr (V4 m ρ) c]
  refine (congrArg₂ Cert.Bridge.Spec.matProd (w4_x1a m ρ c) (w4_a7 m ρ c)).trans ?_
  exact (Cert.Bridge.RefSide.v43_eq _ _ _ _).symm

/-! ## Boundary 6: after host stretch 3 -/

theorem w6_h1b : W6 m ρ c (Proc.devRef .tc main_v42) = h1b m c :=
  (keep3 (W5 m ρ c) main_v42 (by decide)).trans (w5_h1b m ρ c)
set_option maxHeartbeats 2000000 in
theorem w6_agg1b : W6 m ρ c (Proc.devRef .tc main_v55) = agg1b m c := by
  show StableHlo.after hostOps3 (W5 m ρ c) (Proc.devRef .tc main_v55) = _
  after_results_simp
  rw [w5_dst1 m ρ c, w5_nrm1 m ρ c, w5_h1b m ρ c, w5_src1 m ρ c]
  rfl

/-! ## Boundary 7: after kernel region 3 -/

theorem w7_x1b : W7 m ρ c (Proc.devRef .tc main_v56) = x1b m c := by
  refine (W7_arr m ρ c 2).trans ?_
  rw [Cert.Bridge.ReluRegion3.arr (V6 m ρ) c]
  refine (congrArg₂ Cert.Bridge.Spec.reluAdd (w6_agg1b m ρ c) (w6_h1b m ρ c)).trans ?_
  exact (Cert.Bridge.RefSide.v58_eq _ _ _ _).symm

end Cert.Bridge.Chain

end
-- ==== Proof.MatRegion4.lean ====
/-
  A dense-transform region of the kernel, read as one function of the arrays it finds. The region walks 25 blocks of
  4000 rows of a 100000 x 128 array; at each block it multiplies the block by the whole 128 x 128 weight into a zero
  accumulator and writes the 4000 x 128 result back over the same rows of the output array. On the extended reals
  rounding the operands to a narrower format is the identity, so entry (p, q) of a block's result is the sum over k of
  x[4000 t + p, k] * w[k, q], and since every row lies in exactly the block numbered by its quotient by 4000 the output
  array ends as the product x @ w, index by index.
-/
import proofs.«124893_j10479720202575_1_alg».proof.Proof.Gen.KernelIdeal.Frame
import proofs.«124893_j10479720202575_1_alg».proof.Proof.Spec
import proofs.«124893_j10479720202575_1_alg».proof.Proof.LibMatmul
import Idealize.ShloMosaic.Lib.ValueIdx
import Idealize.ShloMosaic.Lib.Pipeline.Value

noncomputable section

open scoped BigOperators

namespace Cert.Bridge.MatRegion4

open Idealize.ShloMosaic Idealize.ShloMosaic.TcCoe Idealize.ShloMosaic.ValueIdx Idealize.SL.Sem Cert.KernelIdeal Cert.KernelIdeal.Gen

/-- The printed dimension numbers are those of a plain 4000 x 128 by 128 x 128 product. -/
theorem dot_plain : dot_S4000x128_S128x128_S4000x128_1_0_0_1_n_n = DotDims.plain 4000 128 128 := rfl

/-- The body's arithmetic at entry (p, q): rounding to the narrower format is the identity on the extended reals and the
    accumulator is zero, so the entry is the sum over k of x0[p, k] * x1[k, q]. -/
theorem pay (x0 : Vec Ideal S4000x128 .f32) (x1 : Vec Ideal S128x128 .f32) (p : Fin 4000) (q : Fin 128) :
    k4_pay1 x0 x1 (ix2 p q) = ∑ k : Fin 128, x0 (ix2 p k) * x1 (ix2 k q) := by
  unfold k4_pay1
  rw [dot_plain]
  exact Cert.Bridge.LibMatmul.matmul_zero_apply none (truncf .bf16 x0 bitsLt_bf16_f32) (truncf .bf16 x1 bitsLt_bf16_f32) p q

theorem hz : (![0, 0] : Fin 2 → Nat) = fun _ => 0 := funext fun a => by fin_cases a <;> rfl

/-- The index maps over the grid: at point t the row windows are at block (t, 0), the weight window at block (0, 0). -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- An index of the array is in point t's block iff each coordinate is in the block's range on its axis. -/
theorem mem_blk (t : Fin cfg4.N) (i : S100000x128.Idx) :
    i ∈ ((cfg4.win 2).blk t).view.set ↔ ∀ a : Fin 2, win4_2.index t a * S4000x128.size a ≤ (i a).val ∧ (i a).val < win4_2.index t a * S4000x128.size a + S4000x128.size a := by
  show i ∈ ((View.whole main_v84).slice (win4_2.rect t)).set ↔ _
  rw [View.set_slice_whole, Rect.mem_set_unit]
  exact Iff.rfl

/-- Every row lies in the block of the point numbered by its quotient by 4000. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 25 := N_4
  let t : Fin cfg4.N := ⟨(i 0).val / 4000, by rw [hN]; omega⟩
  obtain ⟨-, -, -, -, e4, e5⟩ := idx_facts t
  have ht : t.val = (i 0).val / 4000 := rfl
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 128 ≤ (i 1).val ∧ (i 1).val < win4_2.index t (1 : Fin 2) * 128 + 128; omega

set_option maxHeartbeats 400000 in
/-- What point t writes back is block t of the product of the two arrays as the region finds them: entry (p, q) of the
    block is row 4000 t + p of the first array against column q of the second. -/
theorem flushed_eq (V : (c : Dev nD) → (b : Ref sig .tc) → Buf (Elt Ideal) ((c : Thread nD τ).loc b)) (c : Dev nD) (t : Fin cfg4.N) :
    (dat4 (F := Ideal) V c).flushed 2 t
      = ((cfg4.win 2).blk t).view.read (Elt Ideal) (Cert.Bridge.Spec.matProd (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S4000x128) hz, View.ld_unit_zero (S := S128x128) hz]
  obtain ⟨e0, e1, e2, e3, e4, e5⟩ := idx_facts t
  funext (y : S4000x128.Idx)
  obtain ⟨p, q, rfl⟩ : ∃ (p : Fin 4000) (q : Fin 128), y = ix2 p q := ⟨y 0, y 1, eq_ix2 y⟩
  show k4_pay1 (iblk4 V c 0 t) (iblk4 V c 1 t) (ix2 p q)
    = Cert.Bridge.Spec.matProd (V c (Pipeline.arrRef spec4 0)) (V c (Pipeline.arrRef spec4 1)) (((cfg4.win 2).blk t).view.emb (ix2 p q))
  refine (pay (iblk4 V c 0 t) (iblk4 V c 1 t) p q).trans ?_
  refine Finset.sum_congr rfl fun k _ => ?_
  refine congrArg₂ (· * ·) ?_ ?_
  · show V c (Pipeline.arrRef spec4 0) (((cfg4.win 0).blk t).view.emb (ix2 p k)) = V c (Pipeline.arrRef spec4 0) _
    refine congrArg _ ?_
    funext a; apply Fin.ext
    match a with
    | ⟨0, _⟩ => show win4_0.index t (0 : Fin 2) * 4000 + 1 * p.val = win4_2.index t (0 : Fin 2) * 4000 + 1 * p.val; omega
    | ⟨1, _⟩ => show win4_0.index t (1 : Fin 2) * 128 + 1 * k.val = k.val; omega
  · show V c (Pipeline.arrRef spec4 1) (((cfg4.win 1).blk t).view.emb (ix2 k q)) = V c (Pipeline.arrRef spec4 1) _
    refine congrArg _ ?_
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega

/-- The array after the region: every row is in some point's block, so the whole array is the product. -/
theorem arr (V : (c : Dev nD) → (b : Ref sig .tc) → Buf (Elt Ideal) ((c : Thread nD τ).loc b)) (c : Dev nD) :
    (dat4 (F := Ideal) V c).arrAt 2 cfg4.N
      = Cert.Bridge.Spec.matProd (V c (Pipeline.arrRef spec4 0)) (V c (Pipeline.arrRef spec4 1)) :=
  (dat4 (F := Ideal) V c).arrAt_eq_of_cover 2
    (Cert.Bridge.Spec.matProd (V c (Pipeline.arrRef spec4 0)) (V c (Pipeline.arrRef spec4 1)))
    (fun t _ => flushed_eq V c t) cover

end Cert.Bridge.MatRegion4

end
-- ==== Proof.ReluRegion5.lean ====
/-
  Region 5 (the residual followed by the rectifier) as one whole-array function.
  The region's grid has 25 points; point t reads rows 4000 t … 4000 t + 3999 of its two input arrays and
  writes back the same rows of its output. The body is pointwise: at a block coordinate y it is
  max (x0 y + x1 y) 0. All three windows move together (block index (t, 0)), so input block t at y and
  output block t at y are the same array index, and the 25 blocks tile the 100000 rows: row r is in
  the block of point r / 4000. Hence the output array ends holding max (a i + h i) 0 at every index i.
-/
import proofs.«124893_j10479720202575_1_alg».proof.Proof.Gen.KernelIdeal.Frame
import proofs.«124893_j10479720202575_1_alg».proof.Proof.Spec
import Idealize.ShloMosaic.Lib.Pipeline.Value
import Idealize.ShloMosaic.Lib.ValueIdx

noncomputable section

namespace Cert.Bridge.ReluRegion5

open Idealize.ShloMosaic Idealize.ShloMosaic.TcCoe Idealize.ShloMosaic.ValueIdx Idealize.SL.Sem Cert.KernelIdeal Cert.KernelIdeal.Gen
open Idealize.ShloMosaic.Pipeline (Dat)

/-- The zero offset of the body's one store, as a constant function. -/
theorem hz : (![0, 0] : Fin 2 → Nat) = fun _ => 0 := funext fun a => by fin_cases a <;> rfl

/-- The body on two loaded blocks, coordinate by coordinate: the sum, then the maximum with the zero word's value
    (the two shape casts are between equal shapes, so they are the identity). -/
theorem pay_eq (x0 x1 : Vec Ideal S4000x128 .f32) :
    k5_pay1 x0 x1 = fun y => max (x0 y + x1 y) (Ideal.ofBits .f32 0x00000000#32) := by
  unfold k5_pay1
  rw [shapeCast_self, shapeCast_self]
  rfl

/-- One entry: when both input blocks' entries sit at the output entry's array index, the body's value there is the
    whole-array function's. -/
theorem point_eq (a h : Cert.Bridge.Spec.Nodes.Idx → EReal) (i0 i1 i2 : Cert.Bridge.Spec.Nodes.Idx)
    (e0 : i0 = i2) (e1 : i1 = i2) :
    max (a i0 + h i1) (Ideal.ofBits .f32 0x00000000#32) = Cert.Bridge.Spec.reluAdd a h i2 := by
  rw [e0, e1]; rfl

/-- The block index of every window at point t is (t, 0): decided over the 25 points. -/
theorem idx_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0 :=
  (by decide +kernel : ∀ t : Fin grid5.N, _)

/-- What point t writes back is block t of the whole-array function of the two input arrays as the region finds them. -/
theorem flushed_eq (V : (c : Dev nD) → (b : Ref sig .tc) → Buf (Elt Ideal) ((c : Thread nD τ).loc b)) (c : Dev nD)
    (t : Fin cfg5.N) :
    (dat5 (F := Ideal) V c).flushed 2 t
      = ((cfg5.win 2).blk t).view.read (Elt Ideal)
          (Cert.Bridge.Spec.reluAdd (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S4000x128) hz]
  rw [pay_eq]
  obtain ⟨e0, e1, e2, e3, e4, e5⟩ := idx_facts t
  funext j
  have h0 : ((cfg5.win 0).blk t).view.emb j = ((cfg5.win 2).blk t).view.emb j := by
    funext a; apply Fin.ext
    match a with
    | ⟨0, _⟩ => show win5_0.index t (0 : Fin 2) * 4000 + 1 * (j 0).val = win5_2.index t (0 : Fin 2) * 4000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 4000 + 1 * (j 0).val = win5_2.index t (0 : Fin 2) * 4000 + 1 * (j 0).val; omega
    | ⟨1, _⟩ => show win5_1.index t (1 : Fin 2) * 128 + 1 * (j 1).val = win5_2.index t (1 : Fin 2) * 128 + 1 * (j 1).val; omega
  exact point_eq (V c (Pipeline.arrRef spec5 0)) (V c (Pipeline.arrRef spec5 1))
    (((cfg5.win 0).blk t).view.emb j) (((cfg5.win 1).blk t).view.emb j) (((cfg5.win 2).blk t).view.emb j) h0 h1

/-- An index of the array is in point t's output block iff each coordinate is in the block's range on its axis. -/
theorem mem_blk (t : Fin cfg5.N) (i : Cert.Bridge.Spec.Nodes.Idx) :
    i ∈ ((cfg5.win 2).blk t).view.set
      ↔ ∀ a : Fin 2, win5_2.index t a * S4000x128.size a ≤ (i a).val
          ∧ (i a).val < win5_2.index t a * S4000x128.size a + S4000x128.size a := by
  show i ∈ ((View.whole main_v98).slice (win5_2.rect t)).set ↔ _
  rw [View.set_slice_whole, Rect.mem_set_unit]
  exact Iff.rfl

/-- Every index is in some point's output block: row r is in the block of point r / 4000. -/
theorem cover (i : Cert.Bridge.Spec.Nodes.Idx) :
    ∃ t : Fin cfg5.N, (cfg5.win 2).flush t = true ∧ i ∈ ((cfg5.win 2).blk t).view.set := by
  have hN : cfg5.N = 25 := N_5
  have hi0 : (i 0).val < 100000 := (i 0).isLt
  have hi1 : (i 1).val < 128 := (i 1).isLt
  have hlt : (i 0).val / 4000 < cfg5.N := by rw [hN]; omega
  obtain ⟨-, -, -, -, e4, e5⟩ := idx_facts ⟨(i 0).val / 4000, hlt⟩
  have e4' : win5_2.index ⟨(i 0).val / 4000, hlt⟩ (0 : Fin 2) = (i 0).val / 4000 := e4
  refine ⟨⟨(i 0).val / 4000, hlt⟩, flush5_2 _, ?_⟩
  rw [mem_blk]
  intro a
  match a with
  | ⟨0, _⟩ =>
    show win5_2.index ⟨(i 0).val / 4000, hlt⟩ (0 : Fin 2) * 4000 ≤ (i 0).val
      ∧ (i 0).val < win5_2.index ⟨(i 0).val / 4000, hlt⟩ (0 : Fin 2) * 4000 + 4000
    omega
  | ⟨1, _⟩ =>
    show win5_2.index ⟨(i 0).val / 4000, hlt⟩ (1 : Fin 2) * 128 ≤ (i 1).val
      ∧ (i 1).val < win5_2.index ⟨(i 0).val / 4000, hlt⟩ (1 : Fin 2) * 128 + 128
    omega

/-- The region's output array after its 25 points: max (a i + h i) 0 at every index, a and h the two input arrays
    as the region finds them. -/
theorem arr (V : (c : Dev nD) → (b : Ref sig .tc) → Buf (Elt Ideal) ((c : Thread nD τ).loc b)) (c : Dev nD) :
    (dat5 (F := Ideal) V c).arrAt 2 cfg5.N
      = Cert.Bridge.Spec.reluAdd (V c (Pipeline.arrRef spec5 0)) (V c (Pipeline.arrRef spec5 1)) :=
  (dat5 (F := Ideal) V c).arrAt_eq_of_cover 2
    (Cert.Bridge.Spec.reluAdd (V c (Pipeline.arrRef spec5 0)) (V c (Pipeline.arrRef spec5 1)))
    (fun t _ => flushed_eq V c t) cover

end Cert.Bridge.ReluRegion5

end
-- ==== Proof.MatRegion6.lean ====
/-
  A dense-transform region of the kernel, read as one function of the arrays it finds. The region walks 25 blocks of
  4000 rows of a 100000 x 128 array; at each block it multiplies the block by the whole 128 x 128 weight into a zero
  accumulator and writes the 4000 x 128 result back over the same rows of the output array. On the extended reals
  rounding the operands to a narrower format is the identity, so entry (p, q) of a block's result is the sum over k of
  x[4000 t + p, k] * w[k, q], and since every row lies in exactly the block numbered by its quotient by 4000 the output
  array ends as the product x @ w, index by index.
-/
import proofs.«124893_j10479720202575_1_alg».proof.Proof.Gen.KernelIdeal.Frame
import proofs.«124893_j10479720202575_1_alg».proof.Proof.Spec
import proofs.«124893_j10479720202575_1_alg».proof.Proof.LibMatmul
import Idealize.ShloMosaic.Lib.ValueIdx
import Idealize.ShloMosaic.Lib.Pipeline.Value

noncomputable section

open scoped BigOperators

namespace Cert.Bridge.MatRegion6

open Idealize.ShloMosaic Idealize.ShloMosaic.TcCoe Idealize.ShloMosaic.ValueIdx Idealize.SL.Sem Cert.KernelIdeal Cert.KernelIdeal.Gen

/-- The printed dimension numbers are those of a plain 4000 x 128 by 128 x 128 product. -/
theorem dot_plain : dot_S4000x128_S128x128_S4000x128_1_0_0_1_n_n = DotDims.plain 4000 128 128 := rfl

/-- The body's arithmetic at entry (p, q): the reshape to the same shape is the identity, rounding to the narrower
    format is the identity on the extended reals and the accumulator is zero, so the entry is the sum over k of x0[p, k] * x1[k, q]. -/
theorem pay (x0 : Vec Ideal S4000x128 .f32) (x1 : Vec Ideal S128x128 .f32) (p : Fin 4000) (q : Fin 128) :
    k6_pay1 x0 x1 (ix2 p q) = ∑ k : Fin 128, x0 (ix2 p k) * x1 (ix2 k q) := by
  unfold k6_pay1
  rw [dot_plain, shapeCast_self]
  exact Cert.Bridge.LibMatmul.matmul_zero_apply none (truncf .bf16 x0 bitsLt_bf16_f32) (truncf .bf16 x1 bitsLt_bf16_f32) p q

theorem hz : (![0, 0] : Fin 2 → Nat) = fun _ => 0 := funext fun a => by fin_cases a <;> rfl

/-- The index maps over the grid: at point t the row windows are at block (t, 0), the weight window at block (0, 0). -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- An index of the array is in point t's block iff each coordinate is in the block's range on its axis. -/
theorem mem_blk (t : Fin cfg6.N) (i : S100000x128.Idx) :
    i ∈ ((cfg6.win 2).blk t).view.set ↔ ∀ a : Fin 2, win6_2.index t a * S4000x128.size a ≤ (i a).val ∧ (i a).val < win6_2.index t a * S4000x128.size a + S4000x128.size a := by
  show i ∈ ((View.whole main_v99).slice (win6_2.rect t)).set ↔ _
  rw [View.set_slice_whole, Rect.mem_set_unit]
  exact Iff.rfl

/-- Every row lies in the block of the point numbered by its quotient by 4000. -/
theorem cover (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 25 := N_6
  let t : Fin cfg6.N := ⟨(i 0).val / 4000, by rw [hN]; omega⟩
  obtain ⟨-, -, -, -, e4, e5⟩ := idx_facts t
  have ht : t.val = (i 0).val / 4000 := rfl
  refine ⟨t, flush6_2 t, ?_⟩
  rw [mem_blk]
  intro a
  match a with
  | ⟨0, _⟩ => show win6_2.index t (0 : Fin 2) * 4000 ≤ (i 0).val ∧ (i 0).val < win6_2.index t (0 : Fin 2) * 4000 + 4000; omega
  | ⟨1, _⟩ => show win6_2.index t (1 : Fin 2) * 128 ≤ (i 1).val ∧ (i 1).val < win6_2.index t (1 : Fin 2) * 128 + 128; omega

set_option maxHeartbeats 400000 in
/-- What point t writes back is block t of the product of the two arrays as the region finds them: entry (p, q) of the
    block is row 4000 t + p of the first array against column q of the second. -/
theorem flushed_eq (V : (c : Dev nD) → (b : Ref sig .tc) → Buf (Elt Ideal) ((c : Thread nD τ).loc b)) (c : Dev nD) (t : Fin cfg6.N) :
    (dat6 (F := Ideal) V c).flushed 2 t
      = ((cfg6.win 2).blk t).view.read (Elt Ideal) (Cert.Bridge.Spec.matProd (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S4000x128) hz, View.ld_unit_zero (S := S128x128) hz]
  obtain ⟨e0, e1, e2, e3, e4, e5⟩ := idx_facts t
  funext (y : S4000x128.Idx)
  obtain ⟨p, q, rfl⟩ : ∃ (p : Fin 4000) (q : Fin 128), y = ix2 p q := ⟨y 0, y 1, eq_ix2 y⟩
  show k6_pay1 (iblk6 V c 0 t) (iblk6 V c 1 t) (ix2 p q)
    = Cert.Bridge.Spec.matProd (V c (Pipeline.arrRef spec6 0)) (V c (Pipeline.arrRef spec6 1)) (((cfg6.win 2).blk t).view.emb (ix2 p q))
  refine (pay (iblk6 V c 0 t) (iblk6 V c 1 t) p q).trans ?_
  refine Finset.sum_congr rfl fun k _ => ?_
  refine congrArg₂ (· * ·) ?_ ?_
  · show V c (Pipeline.arrRef spec6 0) (((cfg6.win 0).blk t).view.emb (ix2 p k)) = V c (Pipeline.arrRef spec6 0) _
    refine congrArg _ ?_
    funext a; apply Fin.ext
    match a with
    | ⟨0, _⟩ => show win6_0.index t (0 : Fin 2) * 4000 + 1 * p.val = win6_2.index t (0 : Fin 2) * 4000 + 1 * p.val; omega
    | ⟨1, _⟩ => show win6_0.index t (1 : Fin 2) * 128 + 1 * k.val = k.val; omega
  · show V c (Pipeline.arrRef spec6 1) (((cfg6.win 1).blk t).view.emb (ix2 k q)) = V c (Pipeline.arrRef spec6 1) _
    refine congrArg _ ?_
    funext a; apply Fin.ext
    match a with
    | ⟨0, _⟩ => show win6_1.index t (0 : Fin 2) * 128 + 1 * k.val = k.val; omega
    | ⟨1, _⟩ => show win6_1.index t (1 : Fin 2) * 128 + 1 * q.val = win6_2.index t (1 : Fin 2) * 128 + 1 * q.val; omega

/-- The array after the region: every row is in some point's block, so the whole array is the product. -/
theorem arr (V : (c : Dev nD) → (b : Ref sig .tc) → Buf (Elt Ideal) ((c : Thread nD τ).loc b)) (c : Dev nD) :
    (dat6 (F := Ideal) V c).arrAt 2 cfg6.N
      = Cert.Bridge.Spec.matProd (V c (Pipeline.arrRef spec6 0)) (V c (Pipeline.arrRef spec6 1)) :=
  (dat6 (F := Ideal) V c).arrAt_eq_of_cover 2
    (Cert.Bridge.Spec.matProd (V c (Pipeline.arrRef spec6 0)) (V c (Pipeline.arrRef spec6 1)))
    (fun t _ => flushed_eq V c t) cover

end Cert.Bridge.MatRegion6

end
-- ==== Proof.ReluRegion7.lean ====
/-
  Region 7 (the residual followed by the rectifier) as one whole-array function.
  The region's grid has 25 points; point t reads rows 4000 t … 4000 t + 3999 of its two input arrays and
  writes back the same rows of its output. The body is pointwise: at a block coordinate y it is
  max (x0 y + x1 y) 0. All three windows move together (block index (t, 0)), so input block t at y and
  output block t at y are the same array index, and the 25 blocks tile the 100000 rows: row r is in
  the block of point r / 4000. Hence the output array ends holding max (a i + h i) 0 at every index i.
-/
import proofs.«124893_j10479720202575_1_alg».proof.Proof.Gen.KernelIdeal.Frame
import proofs.«124893_j10479720202575_1_alg».proof.Proof.Spec
import Idealize.ShloMosaic.Lib.Pipeline.Value
import Idealize.ShloMosaic.Lib.ValueIdx

noncomputable section

namespace Cert.Bridge.ReluRegion7

open Idealize.ShloMosaic Idealize.ShloMosaic.TcCoe Idealize.ShloMosaic.ValueIdx Idealize.SL.Sem Cert.KernelIdeal Cert.KernelIdeal.Gen
open Idealize.ShloMosaic.Pipeline (Dat)

/-- The zero offset of the body's one store, as a constant function. -/
theorem hz : (![0, 0] : Fin 2 → Nat) = fun _ => 0 := funext fun a => by fin_cases a <;> rfl

/-- The body on two loaded blocks, coordinate by coordinate: the sum, then the maximum with the zero word's value
    (the two shape casts are between equal shapes, so they are the identity). -/
theorem pay_eq (x0 x1 : Vec Ideal S4000x128 .f32) :
    k7_pay1 x0 x1 = fun y => max (x0 y + x1 y) (Ideal.ofBits .f32 0x00000000#32) := by
  unfold k7_pay1
  rw [shapeCast_self, shapeCast_self]
  rfl

/-- One entry: when both input blocks' entries sit at the output entry's array index, the body's value there is the
    whole-array function's. -/
theorem point_eq (a h : Cert.Bridge.Spec.Nodes.Idx → EReal) (i0 i1 i2 : Cert.Bridge.Spec.Nodes.Idx)
    (e0 : i0 = i2) (e1 : i1 = i2) :
    max (a i0 + h i1) (Ideal.ofBits .f32 0x00000000#32) = Cert.Bridge.Spec.reluAdd a h i2 := by
  rw [e0, e1]; rfl

/-- The block index of every window at point t is (t, 0): decided over the 25 points. -/
theorem idx_facts : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0 :=
  (by decide +kernel : ∀ t : Fin grid7.N, _)

/-- What point t writes back is block t of the whole-array function of the two input arrays as the region finds them. -/
theorem flushed_eq (V : (c : Dev nD) → (b : Ref sig .tc) → Buf (Elt Ideal) ((c : Thread nD τ).loc b)) (c : Dev nD)
    (t : Fin cfg7.N) :
    (dat7 (F := Ideal) V c).flushed 2 t
      = ((cfg7.win 2).blk t).view.read (Elt Ideal)
          (Cert.Bridge.Spec.reluAdd (V c (Pipeline.arrRef spec7 0)) (V c (Pipeline.arrRef spec7 1))) := by
  show (cfg7.win 2).cut (grid7.coords t) ((dat7 V c).after 2 t) = _
  rw [after7_2]
  unfold out7_2
  rw [View.canon_unit_zero hz]
  simp only [View.ld_unit_zero (S := S4000x128) hz]
  rw [pay_eq]
  obtain ⟨e0, e1, e2, e3, e4, e5⟩ := idx_facts t
  funext j
  have h0 : ((cfg7.win 0).blk t).view.emb j = ((cfg7.win 2).blk t).view.emb j := by
    funext a; apply Fin.ext
    match a with
    | ⟨0, _⟩ => show win7_0.index t (0 : Fin 2) * 4000 + 1 * (j 0).val = win7_2.index t (0 : Fin 2) * 4000 + 1 * (j 0).val; omega
    | ⟨1, _⟩ => show win7_0.index t (1 : Fin 2) * 128 + 1 * (j 1).val = win7_2.index t (1 : Fin 2) * 128 + 1 * (j 1).val; omega
  have h1 : ((cfg7.win 1).blk t).view.emb j = ((cfg7.win 2).blk t).view.emb j := by
    funext a; apply Fin.ext
    match a with
    | ⟨0, _⟩ => show win7_1.index t (0 : Fin 2) * 4000 + 1 * (j 0).val = win7_2.index t (0 : Fin 2) * 4000 + 1 * (j 0).val; omega
    | ⟨1, _⟩ => show win7_1.index t (1 : Fin 2) * 128 + 1 * (j 1).val = win7_2.index t (1 : Fin 2) * 128 + 1 * (j 1).val; omega
  exact point_eq (V c (Pipeline.arrRef spec7 0)) (V c (Pipeline.arrRef spec7 1))
    (((cfg7.win 0).blk t).view.emb j) (((cfg7.win 1).blk t).view.emb j) (((cfg7.win 2).blk t).view.emb j) h0 h1

/-- An index of the array is in point t's output block iff each coordinate is in the block's range on its axis. -/
theorem mem_blk (t : Fin cfg7.N) (i : Cert.Bridge.Spec.Nodes.Idx) :
    i ∈ ((cfg7.win 2).blk t).view.set
      ↔ ∀ a : Fin 2, win7_2.index t a * S4000x128.size a ≤ (i a).val
          ∧ (i a).val < win7_2.index t a * S4000x128.size a + S4000x128.size a := by
  show i ∈ ((View.whole main_v113).slice (win7_2.rect t)).set ↔ _
  rw [View.set_slice_whole, Rect.mem_set_unit]
  exact Iff.rfl

/-- Every index is in some point's output block: row r is in the block of point r / 4000. -/
theorem cover (i : Cert.Bridge.Spec.Nodes.Idx) :
    ∃ t : Fin cfg7.N, (cfg7.win 2).flush t = true ∧ i ∈ ((cfg7.win 2).blk t).view.set := by
  have hN : cfg7.N = 25 := N_7
  have hi0 : (i 0).val < 100000 := (i 0).isLt
  have hi1 : (i 1).val < 128 := (i 1).isLt
  have hlt : (i 0).val / 4000 < cfg7.N := by rw [hN]; omega
  obtain ⟨-, -, -, -, e4, e5⟩ := idx_facts ⟨(i 0).val / 4000, hlt⟩
  have e4' : win7_2.index ⟨(i 0).val / 4000, hlt⟩ (0 : Fin 2) = (i 0).val / 4000 := e4
  refine ⟨⟨(i 0).val / 4000, hlt⟩, flush7_2 _, ?_⟩
  rw [mem_blk]
  intro a
  match a with
  | ⟨0, _⟩ =>
    show win7_2.index ⟨(i 0).val / 4000, hlt⟩ (0 : Fin 2) * 4000 ≤ (i 0).val
      ∧ (i 0).val < win7_2.index ⟨(i 0).val / 4000, hlt⟩ (0 : Fin 2) * 4000 + 4000
    omega
  | ⟨1, _⟩ =>
    show win7_2.index ⟨(i 0).val / 4000, hlt⟩ (1 : Fin 2) * 128 ≤ (i 1).val
      ∧ (i 1).val < win7_2.index ⟨(i 0).val / 4000, hlt⟩ (1 : Fin 2) * 128 + 128
    omega

/-- The region's output array after its 25 points: max (a i + h i) 0 at every index, a and h the two input arrays
    as the region finds them. -/
theorem arr (V : (c : Dev nD) → (b : Ref sig .tc) → Buf (Elt Ideal) ((c : Thread nD τ).loc b)) (c : Dev nD) :
    (dat7 (F := Ideal) V c).arrAt 2 cfg7.N
      = Cert.Bridge.Spec.reluAdd (V c (Pipeline.arrRef spec7 0)) (V c (Pipeline.arrRef spec7 1)) :=
  (dat7 (F := Ideal) V c).arrAt_eq_of_cover 2
    (Cert.Bridge.Spec.reluAdd (V c (Pipeline.arrRef spec7 0)) (V c (Pipeline.arrRef spec7 1)))
    (fun t _ => flushed_eq V c t) cover

end Cert.Bridge.ReluRegion7

end
-- ==== Proof.ChainB.lean ====
/- Graph two through the idealized kernel program, and the two gathers at the seed lists, boundary by boundary
  (W8 … W15), in the same way as graph one; graph one's final features pass through to the end.
-/
import proofs.«124893_j10479720202575_1_alg».proof.Proof.Gen.KernelIdeal.Frame
import proofs.«124893_j10479720202575_1_alg».proof.Proof.Keep
import proofs.«124893_j10479720202575_1_alg».proof.Proof.Values
import proofs.«124893_j10479720202575_1_alg».proof.Proof.ChainArgs
import proofs.«124893_j10479720202575_1_alg».proof.Proof.ChainA
import proofs.«124893_j10479720202575_1_alg».proof.Proof.RefSide
import proofs.«124893_j10479720202575_1_alg».proof.Proof.MatRegion4
import proofs.«124893_j10479720202575_1_alg».proof.Proof.ReluRegion5
import proofs.«124893_j10479720202575_1_alg».proof.Proof.MatRegion6
import proofs.«124893_j10479720202575_1_alg».proof.Proof.ReluRegion7

set_option maxRecDepth 16384

noncomputable section

namespace Cert.Bridge.Chain

open Idealize.ShloMosaic Idealize.ShloMosaic.TcCoe Idealize.SL.Sem Idealize.ShloMosaic.StableHlo
open Cert.KernelIdeal Cert.KernelIdeal.Gen Cert.Bridge.Keep Cert.Bridge.Values

variable (m : (ℓ : Loc nD τ sig) → Buf (Elt Ideal) ℓ) (ρ : Dev nD → PrngReg) (c : Dev nD)

/-! ## Boundary 8: after host stretch 4 -/

theorem w8_x1b : W8 m ρ c (Proc.devRef .tc main_v56) = x1b m c :=
  (keep4 (W7 m ρ c) main_v56 (by decide)).trans (w7_x1b m ρ c)
set_option maxHeartbeats 2000000 in
theorem w8_src2 : W8 m ρ c (Proc.devRef .tc main_v60) = src2 m c := by
  have e : ∀ V : Valuation τ sig (Elt Ideal), StableHlo.after hostOps4 V (Proc.devRef .tc main_v60)
      = Cert.ReferenceIdeal.Read.val_main_v62 (F := Ideal) (V (Proc.devRef .tc main_arg3)) := by
    intro V
    after_results_simp
    rfl
  exact (e (W7 m ρ c)).trans (congrArg (Cert.ReferenceIdeal.Read.val_main_v62 (F := Ideal)) (w7_a3 m ρ c))
set_option maxHeartbeats 2000000 in
theorem w8_dst2 : W8 m ρ c (Proc.devRef .tc main_v63) = dst2 m c := by
  have e : ∀ V : Valuation τ sig (Elt Ideal), StableHlo.after hostOps4 V (Proc.devRef .tc main_v63)
      = Cert.ReferenceIdeal.Read.val_main_v65 (F := Ideal) (V (Proc.devRef .tc main_arg3)) := by
    intro V
    after_results_simp
    rfl
  exact (e (W7 m ρ c)).trans (congrArg (Cert.ReferenceIdeal.Read.val_main_v65 (F := Ideal)) (w7_a3 m ρ c))
set_option maxHeartbeats 2000000 in
theorem w8_nrm2 : W8 m ρ c (Proc.devRef .tc main_v83) = nrm2 m c := by
  have e : ∀ V : Valuation τ sig (Elt Ideal), StableHlo.after hostOps4 V (Proc.devRef .tc main_v83)
      = Cert.ReferenceIdeal.Read.val_main_v85 (F := Ideal) (V (Proc.devRef .tc main_arg3)) := by
    intro V
    after_results_simp
    rfl
  exact (e (W7 m ρ c)).trans (congrArg (Cert.ReferenceIdeal.Read.val_main_v85 (F := Ideal)) (w7_a3 m ρ c))

/-! ## Boundary 9: after kernel region 4 -/

theorem w9_x1b : W9 m ρ c (Proc.devRef .tc main_v56) = x1b m c :=
  (W9_of_ne m ρ c main_v56 (by decide)).trans (w8_x1b m ρ c)
theorem w9_src2 : W9 m ρ c (Proc.devRef .tc main_v60) = src2 m c :=
  (W9_of_ne m ρ c main_v60 (by decide)).trans (w8_src2 m ρ c)
theorem w9_dst2 : W9 m ρ c (Proc.devRef .tc main_v63) = dst2 m c :=
  (W9_of_ne m ρ c main_v63 (by decide)).trans (w8_dst2 m ρ c)
theorem w9_nrm2 : W9 m ρ c (Proc.devRef .tc main_v83) = nrm2 m c :=
  (W9_of_ne m ρ c main_v83 (by decide)).trans (w8_nrm2 m ρ c)
theorem w9_h2a : W9 m ρ c (Proc.devRef .tc main_v84) = h2a m c := by
  refine (W9_arr m ρ c 2).trans ?_
  rw [Cert.Bridge.MatRegion4.arr (V8 m ρ) c]
  refine (congrArg₂ Cert.Bridge.Spec.matProd (w8_a5 m ρ c) (w8_a6 m ρ c)).trans ?_
  exact (Cert.Bridge.RefSide.v86_eq _ _).symm

/-! ## Boundary 10: after host stretch 5 -/

theorem w10_x1b : W10 m ρ c (Proc.devRef .tc main_v56) = x1b m c :=
  (keep5 (W9 m ρ c) main_v56 (by decide)).trans (w9_x1b m ρ c)
theorem w10_src2 : W10 m ρ c (Proc.devRef .tc main_v60) = src2 m c :=
  (keep5 (W9 m ρ c) main_v60 (by decide)).trans (w9_src2 m ρ c)
theorem w10_dst2 : W10 m ρ c (Proc.devRef .tc main_v63) = dst2 m c :=
  (keep5 (W9 m ρ c) main_v63 (by decide)).trans (w9_dst2 m ρ c)
theorem w10_nrm2 : W10 m ρ c (Proc.devRef .tc main_v83) = nrm2 m c :=
  (keep5 (W9 m ρ c) main_v83 (by decide)).trans (w9_nrm2 m ρ c)
theorem w10_h2a : W10 m ρ c (Proc.devRef .tc main_v84) = h2a m c :=
  (keep5 (W9 m ρ c) main_v84 (by decide)).trans (w9_h2a m ρ c)
set_option maxHeartbeats 2000000 in
theorem w10_agg2a : W10 m ρ c (Proc.devRef .tc main_v97) = agg2a m c := by
  show StableHlo.after hostOps5 (W9 m ρ c) (Proc.devRef .tc main_v97) = _
  after_results_simp
  rw [w9_dst2 m ρ c, w9_nrm2 m ρ c, w9_h2a m ρ c, w9_src2 m ρ c]
  rfl

/-! ## Boundary 11: after kernel region 5 -/

theorem w11_x1b : W11 m ρ c (Proc.devRef .tc main_v56) = x1b m c :=
  (W11_of_ne m ρ c main_v56 (by decide)).trans (w10_x1b m ρ c)
theorem w11_src2 : W11 m ρ c (Proc.devRef .tc main_v60) = src2 m c :=
  (W11_of_ne m ρ c main_v60 (by decide)).trans (w10_src2 m ρ c)
theorem w11_dst2 : W11 m ρ c (Proc.devRef .tc main_v63) = dst2 m c :=
  (W11_of_ne m ρ c main_v63 (by decide)).trans (w10_dst2 m ρ c)
theorem w11_nrm2 : W11 m ρ c (Proc.devRef .tc main_v83) = nrm2 m c :=
  (W11_of_ne m ρ c main_v83 (by decide)).trans (w10_nrm2 m ρ c)
theorem w11_x2a : W11 m ρ c (Proc.devRef .tc main_v98) = x2a m c := by
  refine (W11_arr m ρ c 2).trans ?_
  rw [Cert.Bridge.ReluRegion5.arr (V10 m ρ) c]
  refine (congrArg₂ Cert.Bridge.Spec.reluAdd (w10_agg2a m ρ c) (w10_h2a m ρ c)).trans ?_
  exact (Cert.Bridge.RefSide.v101_eq _ _ _).symm

/-! ## Boundary 12: after kernel region 6 -/

theorem w12_x1b : W12 m ρ c (Proc.devRef .tc main_v56) = x1b m c :=
  (W12_of_ne m ρ c main_v56 (by decide)).trans (w11_x1b m ρ c)
theorem w12_src2 : W12 m ρ c (Proc.devRef .tc main_v60) = src2 m c :=
  (W12_of_ne m ρ c main_v60 (by decide)).trans (w11_src2 m ρ c)
theorem w12_dst2 : W12 m ρ c (Proc.devRef .tc main_v63) = dst2 m c :=
  (W12_of_ne m ρ c main_v63 (by decide)).trans (w11_dst2 m ρ c)
theorem w12_nrm2 : W12 m ρ c (Proc.devRef .tc main_v83) = nrm2 m c :=
  (W12_of_ne m ρ c main_v83 (by decide)).trans (w11_nrm2 m ρ c)
theorem w12_h2b : W12 m ρ c (Proc.devRef .tc main_v99) = h2b m c := by
  refine (W12_arr m ρ c 2).trans ?_
  rw [Cert.Bridge.MatRegion6.arr (V11 m ρ) c]
  refine (congrArg₂ Cert.Bridge.Spec.matProd (w11_x2a m ρ c) (w11_a7 m ρ c)).trans ?_
  exact (Cert.Bridge.RefSide.v102_eq _ _ _ _).symm

/-! ## Boundary 13: after host stretch 7 -/

theorem w13_x1b : W13 m ρ c (Proc.devRef .tc main_v56) = x1b m c :=
  (keep7 (W12 m ρ c) main_v56 (by decide)).trans (w12_x1b m ρ c)
theorem w13_h2b : W13 m ρ c (Proc.devRef .tc main_v99) = h2b m c :=
  (keep7 (W12 m ρ c) main_v99 (by decide)).trans (w12_h2b m ρ c)
set_option maxHeartbeats 2000000 in
theorem w13_agg2b : W13 m ρ c (Proc.devRef .tc main_v112) = agg2b m c := by
  show StableHlo.after hostOps7 (W12 m ρ c) (Proc.devRef .tc main_v112) = _
  after_results_simp
  rw [w12_dst2 m ρ c, w12_nrm2 m ρ c, w12_h2b m ρ c, w12_src2 m ρ c]
  rfl

/-! ## Boundary 14: after kernel region 7 -/

theorem w14_x1b : W14 m ρ c (Proc.devRef .tc main_v56) = x1b m c :=
  (W14_of_ne m ρ c main_v56 (by decide)).trans (w13_x1b m ρ c)
theorem w14_x2b : W14 m ρ c (Proc.devRef .tc main_v113) = x2b m c := by
  refine (W14_arr m ρ c 2).trans ?_
  rw [Cert.Bridge.ReluRegion7.arr (V13 m ρ) c]
  refine (congrArg₂ Cert.Bridge.Spec.reluAdd (w13_agg2b m ρ c) (w13_h2b m ρ c)).trans ?_
  exact (Cert.Bridge.RefSide.v117_eq _ _ _ _).symm

/-! ## Boundary 15: after host stretch 8 -/

theorem w15_x1b : W15 m ρ c (Proc.devRef .tc main_v56) = x1b m c :=
  (keep8 (W14 m ρ c) main_v56 (by decide)).trans (w14_x1b m ρ c)
theorem w15_x2b : W15 m ρ c (Proc.devRef .tc main_v113) = x2b m c :=
  (keep8 (W14 m ρ c) main_v113 (by decide)).trans (w14_x2b m ρ c)
set_option maxHeartbeats 2000000 in
theorem w15_out0 : W15 m ρ c (Proc.devRef .tc main_v120) = out0 m c := by
  show StableHlo.after hostOps8 (W14 m ρ c) (Proc.devRef .tc main_v120) = _
  after_results_simp
  rw [w14_x1b m ρ c, w14_a0 m ρ c]
  rfl
set_option maxHeartbeats 2000000 in
theorem w15_out1 : W15 m ρ c (Proc.devRef .tc main_v127) = out1 m c := by
  show StableHlo.after hostOps8 (W14 m ρ c) (Proc.devRef .tc main_v127) = _
  after_results_simp
  rw [w14_x2b m ρ c, w14_a1 m ρ c]
  rfl

end Cert.Bridge.Chain

end
-- ==== Proof.KernelValue.lean ====
/-
  The idealized kernel program's run with its four results named: every weakly fair execution terminates, the two
  graphs' final features and their rows gathered at the seed lists are the reference's own stage functions of the
  launch contents of the arguments, and the arguments end as launched.
-/
import proofs.«124893_j10479720202575_1_alg».proof.Proof.Values
import proofs.«124893_j10479720202575_1_alg».proof.Proof.KernelRun
import proofs.«124893_j10479720202575_1_alg».proof.Proof.ChainB

noncomputable section

namespace Cert.Bridge.KernelValue

open Idealize.ShloMosaic Idealize.ShloMosaic.TcCoe Idealize.SL.Sem
open Cert.KernelIdeal Cert.Bridge.Values

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v120) = out0 m c
      ∧ r.2.mem ((c.tc : Thread nD τ).loc main_v127) = out1 m c
      ∧ r.2.mem ((c.tc : Thread nD τ).loc main_v56) = x1b m c
      ∧ r.2.mem ((c.tc : Thread nD τ).loc main_v113) = x2b m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c =>
    ⟨(h c _ (Cert.KernelIdeal.Gen.mem_uc main_v120 (by decide))).trans (Cert.Bridge.Chain.w15_out0 m ρ c),
     (h c _ (Cert.KernelIdeal.Gen.mem_uc main_v127 (by decide))).trans (Cert.Bridge.Chain.w15_out1 m ρ c),
     (h c _ (Cert.KernelIdeal.Gen.mem_uc main_v56 (by decide))).trans (Cert.Bridge.Chain.w15_x1b m ρ c),
     (h c _ (Cert.KernelIdeal.Gen.mem_uc main_v113 (by decide))).trans (Cert.Bridge.Chain.w15_x2b m ρ c),
     (h c _ (Cert.KernelIdeal.Gen.mem_uc main_arg0 (by decide))).trans (Cert.KernelIdeal.Gen.W15_main_arg0 m ρ c),
     (h c _ (Cert.KernelIdeal.Gen.mem_uc main_arg1 (by decide))).trans (Cert.KernelIdeal.Gen.W15_main_arg1 m ρ c),
     (h c _ (Cert.KernelIdeal.Gen.mem_uc main_arg2 (by decide))).trans (Cert.KernelIdeal.Gen.W15_main_arg2 m ρ c),
     (h c _ (Cert.KernelIdeal.Gen.mem_uc main_arg3 (by decide))).trans (Cert.KernelIdeal.Gen.W15_main_arg3 m ρ c),
     (h c _ (Cert.KernelIdeal.Gen.mem_uc main_arg4 (by decide))).trans (Cert.KernelIdeal.Gen.W15_main_arg4 m ρ c),
     (h c _ (Cert.KernelIdeal.Gen.mem_uc main_arg5 (by decide))).trans (Cert.KernelIdeal.Gen.W15_main_arg5 m ρ c),
     (h c _ (Cert.KernelIdeal.Gen.mem_uc main_arg6 (by decide))).trans (Cert.KernelIdeal.Gen.W15_main_arg6 m ρ c),
     (h c _ (Cert.KernelIdeal.Gen.mem_uc main_arg7 (by decide))).trans (Cert.KernelIdeal.Gen.W15_main_arg7 m ρ c)⟩)
    (Cert.KernelIdeal.GenP.run_buffers m ρ)

end Cert.Bridge.KernelValue

end
-- ==== Proof.lean ====
/- The proof of `Cert.Claim`: the five claims behind the witnesses of the programs' stated facts.
   Both kernel programs run and leave their eight arguments unchanged (their generated frames). The reference runs
   and leaves its arguments unchanged (its generated run, the four results dropped). The idealization rewrote no
   operation, so there is nothing to preserve. At the extended reals, from memories agreeing on the arguments, the
   kernel program's four results and the reference's four results are the same functions of the arguments: each is
   the reference's own stage function — the two graphs' features after two rounds of transform, weighted
   aggregation, residual and rectifier, and their rows gathered at the two seed lists — read at the kernel
   program's launch contents, which the agreement identifies with the reference's. -/
import proofs.«124893_j10479720202575_1_alg».proof.Defs
import proofs.«124893_j10479720202575_1_alg».proof.Proof.Gen.Kernel
import proofs.«124893_j10479720202575_1_alg».proof.Proof.Gen.Kernel.Skeleton
import proofs.«124893_j10479720202575_1_alg».proof.Proof.Gen.Kernel.Launch
import proofs.«124893_j10479720202575_1_alg».proof.Proof.Gen.Kernel.Points
import proofs.«124893_j10479720202575_1_alg».proof.Proof.Gen.Kernel.Frame
import proofs.«124893_j10479720202575_1_alg».proof.Proof.Gen.KernelIdeal
import proofs.«124893_j10479720202575_1_alg».proof.Proof.Gen.KernelIdeal.Skeleton
import proofs.«124893_j10479720202575_1_alg».proof.Proof.Gen.KernelIdeal.Launch
import proofs.«124893_j10479720202575_1_alg».proof.Proof.Gen.KernelIdeal.Points
import proofs.«124893_j10479720202575_1_alg».proof.Proof.Gen.KernelIdeal.Frame
import proofs.«124893_j10479720202575_1_alg».proof.Proof.Gen.ReferenceIdeal
import proofs.«124893_j10479720202575_1_alg».proof.Proof.Gen.Pre_finite_inputs
import proofs.«124893_j10479720202575_1_alg».proof.Proof.Gen.ReferenceIdeal.Run
import proofs.«124893_j10479720202575_1_alg».proof.Proof.Gen.ReferenceIdeal.Read
import proofs.«124893_j10479720202575_1_alg».proof.Proof.KernelValue
import Idealize.ShloMosaic.Adequacy
import Idealize.ShloMosaic.Init

noncomputable section

namespace Cert.Proof.Claims

open Idealize.ShloMosaic Idealize.SL.Sem

/-- The kernel program runs and its arguments end unchanged. -/
theorem frame_k : Cert.frame_Kernel := fun m ρ _ => Cert.Kernel.Gen.frame m ρ

/-- The idealized kernel program runs and its arguments end unchanged. -/
theorem frame_ki : Cert.frame_KernelIdeal := fun m ρ _ => Cert.KernelIdeal.Gen.frame m ρ

/-- The reference runs and its arguments end unchanged: its run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- At the extended reals the kernel program's results are the reference's stage functions of its own launch
    contents of the arguments, the reference's are the same stage functions of its launch contents, and the two
    launch contents agree on every argument: one term on both sides. -/
theorem algebraic : Cert.algebraic_KernelIdeal_ReferenceIdeal := by
  intro m ρ m' ρ' _ hagree
  refine ⟨fun c => Cert.Bridge.Values.out0 m c, fun c => Cert.Bridge.Values.out1 m c,
    fun c => Cert.Bridge.Values.x1b m c, fun c => Cert.Bridge.Values.x2b m c,
    Cert.Bridge.KernelValue.run m ρ, ?_⟩
  refine (θ_run Cert.ReferenceIdeal.defs _ _).mono (fun _ h c =>
      ⟨(h c).1.trans ?_, (h c).2.1.trans ?_, (h c).2.2.1.trans ?_, (h c).2.2.2.1.trans ?_, (h c).2.2.2.2⟩)
    (Cert.ReferenceIdeal.Value.run (F := Ideal) m' ρ')
  · obtain ⟨a0, a1, a2, a3, a4, a5, a6, a7⟩ := hagree c
    rw [Cert.ReferenceIdeal.Read.val_main_v124_eq m' c, a0, a2, a4, a6, a7]
  · obtain ⟨a0, a1, a2, a3, a4, a5, a6, a7⟩ := hagree c
    rw [Cert.ReferenceIdeal.Read.val_main_v131_eq m' c, a1, a3, a5, a6, a7]
  · obtain ⟨a0, a1, a2, a3, a4, a5, a6, a7⟩ := hagree c
    rw [Cert.ReferenceIdeal.Read.val_main_v58_eq m' c, a2, a4, a6, a7]
  · obtain ⟨a0, a1, a2, a3, a4, a5, a6, a7⟩ := hagree c
    rw [Cert.ReferenceIdeal.Read.val_main_v117_eq m' c, a3, a5, a6, a7]

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
